-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S128 .f32) (main_arg6 : FVec F S128x8 .f32) (main_arg7 : FVec F S8 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x8 .f32 := Host.absf main_arg6
  let main_cst_8 : FVec F S_ .f32 := constant S_ .f32 0x7F800000#32
  let main_v25 : FVec F S128x8 .f32 := broadcastInDim S128x8 ![] bcast_S_S128x8 main_cst_8
  let main_v26 : IVec S128x8 1 := cmpf .olt main_v24 main_v25
  let main_c_9 : IVec S_ 1 := constantI S_ 1 1#1
  let main_v27 : IVec S_ 1 := (fun x v => Host.reduce IntOp.andi x v reducesTo_S128x8_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x8 .f32) (main_arg7 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S100000x8 : Shape := ⟨2, ![100000, 8]⟩
abbrev S5000x8 : Shape := ⟨2, ![5000, 8]⟩
abbrev S1x8 : Shape := ⟨2, ![1, 8]⟩

abbrev nBuf : Space → Nat
  | .hbm => 52
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x8, .f32⟩
  | .hbm, ⟨7, _⟩ => ⟨S8, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x128, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000x128, .f32⟩
  | .hbm, ⟨33, _⟩ => ⟨S_, .f32⟩
  | .hbm, ⟨34, _⟩ => ⟨S100000x128, .f32⟩
  | .hbm, ⟨35, _⟩ => ⟨S1700000x1, .i32⟩
  | .hbm, ⟨36, _⟩ => ⟨S100000x128, .f32⟩
  | .hbm, ⟨37, _⟩ => ⟨S100000x128, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000x128, .f32⟩
  | .hbm, ⟨47, _⟩ => ⟨S_, .f32⟩
  | .hbm, ⟨48, _⟩ => ⟨S100000x128, .f32⟩
  | .hbm, ⟨49, _⟩ => ⟨S1700000x1, .i32⟩
  | .hbm, ⟨50, _⟩ => ⟨S100000x128, .f32⟩
  | .hbm, ⟨51, _⟩ => ⟨S100000x8, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S128, .f32⟩
  | .local _ .vmem, ⟨20, _⟩ => ⟨S128x8, .f32⟩
  | .local _ .vmem, ⟨21, _⟩ => ⟨S8, .f32⟩
  | .local _ .vmem, ⟨22, _⟩ => ⟨S5000x8, .f32⟩
  | .local _ .vmem, ⟨23, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x8 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x8_S128x8_0_0 : ∀ a, (![0, 0] : Fin 2 → Nat) a + S128x8.size a ≤ S128x8.size a
  h_S128x8 : 0 < S128x8.numel
  inb_S8_S8_0 : ∀ a, (![0] : Fin 1 → Nat) a + S8.size a ≤ S8.size a
  h_S8 : 0 < S8.numel
  shapeCasts_S8_S1x8 : S8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x8_S5000x8_1_0_0_1_n_n_wf : DotDims.WF S5000x128 S128x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x8.size a ≤ S128x8.size a
  hwx2_3 : ∀ i : grid2.Coords, EltTy.bits .f32 = 32 ∨ (Rect.block (s := S128x8) S128x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S8.size a ≤ S8.size a
  hwx2_4 : ∀ i : grid2.Coords, EltTy.bits .f32 = 32 ∨ (Rect.block (s := S8) S8.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x8.size a ≤ S100000x8.size a
  hwx2_5 : ∀ i : grid2.Coords, EltTy.bits .f32 = 32 ∨ (Rect.block (s := S100000x8) S5000x8.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x8_S5000x8_1_0_0_1_n_n : DotDims S5000x128 S128x8 S5000x8 where
  lhsContracting := [1]
  rhsContracting := [0]
  lhsNonContracting := [0]
  rhsNonContracting := [1]
  lhsBatch := []
  rhsBatch := []
  wf := dot_S5000x128_S128x8_S5000x8_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S5000x8.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x8 : Shape := ⟨2, ![100000, 8]⟩
abbrev S1x8 : Shape := ⟨2, ![1, 8]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x8, .f32⟩
  | .hbm, ⟨7, _⟩ => ⟨S8, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x128, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x128, .f32⟩
  | .hbm, ⟨74, _⟩ => ⟨S1700000x1, .f32⟩
  | .hbm, ⟨75, _⟩ => ⟨S1700000x128, .f32⟩
  | .hbm, ⟨76, _⟩ => ⟨S1700000x128, .f32⟩
  | .hbm, ⟨77, _⟩ => ⟨S_, .f32⟩
  | .hbm, ⟨78, _⟩ => ⟨S100000x128, .f32⟩
  | .hbm, ⟨79, _⟩ => ⟨S1700000x1, .i32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S100000x8, .f32⟩
  | .hbm, ⟨88, _⟩ => ⟨S1x8, .f32⟩
  | .hbm, ⟨89, _⟩ => ⟨S100000x8, .f32⟩
  | .hbm, ⟨90, _⟩ => ⟨S100000x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x8_S100000x8_1_0_0_1_n_n_wf : DotDims.WF S100000x128 S128x8 S100000x8 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf

class Facts : Prop extends Facts₀ where

variable [Facts]
-- ==== Proof.KRun.lean ====
/-
  The kernel program's run with its result array named.

  The program is three pipelined regions among stretches of host operations.  Every weakly fair execution terminates
  without a fault; at the end each unscoped buffer holds the last boundary's contents, so the result buffer holds what the
  third region's write-backs leave of it, and each argument array is as launched.
-/
import proofs.«178645_j89919435309559_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents of it
    and the argument arrays as launched. -/
theorem run_named : θ_run defs (onTc (τ := τ) (main (F := F))) ⟨m, fun _ => 0, ρ⟩ (fun r => ∀ c : Dev nD,
      r.2.mem ((c.tc : Thread nD τ).loc main_v35) = W6 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v35 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Run

end
-- ==== Proof.LibHostKeeps.lean ====
/-
  A host stretch leaves alone every buffer none of its operations writes: the fold of the stretch over the memory, read
  at such a buffer, is the memory there. The tactic below closes that goal for a literal stretch and a literal buffer,
  one inequality of references per operation.
-/
import Idealize.ShloMosaic.Lib.StableHlo.Run

open Idealize.ShloMosaic

/-- Closes `StableHlo.after ops W b = W b` when no operation of the literal list `ops` writes the literal buffer `b`. -/
macro "host_keeps" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
-- ==== Proof.LibSpreadColumn.lean ====
/-
  A one-column matrix spread along the rows by a vector broadcast.

  Broadcasting an [a, 1] array to [a, b] repeats its one column: the entry at (p, c) is the column's entry (p, 0).
-/
import Idealize.ShloMosaic.Lib.Pipeline.Value
import Idealize.ShloMosaic.Lib.ValueIdx

namespace Cert.LibSpreadColumn

open Idealize.ShloMosaic Idealize.ShloMosaic.ValueIdx

variable {α : Type}

/-- An [a, 1] array broadcast to [a, b] reads, at (p, c), the operand's column entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibSpreadColumn
-- ==== Proof.KPay.lean ====
/-
  What each of the three kernel bodies stores, read at one element.

  Every body is a block product of a [5000, 128] block with a resident weight matrix, wrapped in row-wise and
  column-wise affine maps.  At the extended reals the roundings to a shorter float format are the identity, the block
  product into a zero accumulator is the plain sum over the contracted axis, a [5000, 1] column spread over the 128 (or 8)
  columns reads the column's row entry, and a [128] (or [8]) vector spread over the rows reads the vector's column entry.
    first body  : (Σ_k x[p,k]·w[k,q]) · d[p]
    second body : (Σ_k max(a[p,k]·d[p] + b[k], 0)·w[k,q]) · d[p]
    third body  : (Σ_k max(a[p,k]·d[p] + b[k], 0)·w[k,q]) + c[q]
-/
import proofs.«178645_j89919435309559_2_alg».proof.Proof.Gen.KernelIdeal.Skeleton
import proofs.«178645_j89919435309559_2_alg».proof.Proof.LibSpreadColumn
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.LibSpreadColumn

theorem blockProduct128_apply_lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem blockProduct128_apply_lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem blockProduct128_apply_rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem blockProduct128_apply_rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Row p of the left factor against column q of the right one: the block product into a zero accumulator, read at
    (p, q), is the sum over the contracted axis of the products. -/
theorem blockProduct128_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact blockProduct128_apply_lhs0 _ _
      | ⟨1, _⟩ => exact (blockProduct128_apply_lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (blockProduct128_apply_rhs0 _ _).trans hk
      | ⟨1, _⟩ => exact blockProduct128_apply_rhs1 _ _)
  rw [el, er]

theorem blockProduct8_apply_lhs0 (i : S5000x8.Idx) (q : dot_S5000x128_S128x8_S5000x8_1_0_0_1_n_n.contr.Idx) : (dot_S5000x128_S128x8_S5000x8_1_0_0_1_n_n.lhsIdx i q 0).val = (i 0).val := by
  unfold DotDims.lhsIdx
  rw [dif_neg (show ¬(0 : Fin S5000x128.rank) ∈ dot_S5000x128_S128x8_S5000x8_1_0_0_1_n_n.lhsBatch by decide),
    dif_pos (show (0 : Fin S5000x128.rank) ∈ dot_S5000x128_S128x8_S5000x8_1_0_0_1_n_n.lhsNonContracting by decide)]
  rfl
theorem blockProduct8_apply_lhs1 (i : S5000x8.Idx) (q : dot_S5000x128_S128x8_S5000x8_1_0_0_1_n_n.contr.Idx) : (dot_S5000x128_S128x8_S5000x8_1_0_0_1_n_n.lhsIdx i q 1).val = (q ⟨0, by decide⟩).val :=
  dot_S5000x128_S128x8_S5000x8_1_0_0_1_n_n.lhsIdx_val_of_single rfl i q
theorem blockProduct8_apply_rhs0 (i : S5000x8.Idx) (q : dot_S5000x128_S128x8_S5000x8_1_0_0_1_n_n.contr.Idx) : (dot_S5000x128_S128x8_S5000x8_1_0_0_1_n_n.rhsIdx i q 0).val = (q ⟨0, by decide⟩).val :=
  dot_S5000x128_S128x8_S5000x8_1_0_0_1_n_n.rhsIdx_val_of_single rfl i q
theorem blockProduct8_apply_rhs1 (i : S5000x8.Idx) (q : dot_S5000x128_S128x8_S5000x8_1_0_0_1_n_n.contr.Idx) : (dot_S5000x128_S128x8_S5000x8_1_0_0_1_n_n.rhsIdx i q 1).val = (i 1).val := by
  unfold DotDims.rhsIdx
  rw [dif_neg (show ¬(1 : Fin S128x8.rank) ∈ dot_S5000x128_S128x8_S5000x8_1_0_0_1_n_n.rhsBatch by decide),
    dif_pos (show (1 : Fin S128x8.rank) ∈ dot_S5000x128_S128x8_S5000x8_1_0_0_1_n_n.rhsNonContracting by decide)]
  rfl

/-- Row p of the left factor against column q of the right one: the block product into a zero accumulator, read at
    (p, q), is the sum over the contracted axis of the products. -/
theorem blockProduct8_apply (l : FVec Ideal S5000x128 .bf16) (r : FVec Ideal S128x8 .bf16) (p : Fin 5000) (q : Fin 8) :
    matmul dot_S5000x128_S128x8_S5000x8_1_0_0_1_n_n none l r (constant (F := Ideal) S5000x8 .f32 0x00000000#32) (ix2 p q)
      = ∑ k : Fin 128, l (ix2 p k) * r (ix2 k q) := by
  refine (Ideal.matmul_constant_zero_apply dot_S5000x128_S128x8_S5000x8_1_0_0_1_n_n none l r (ix2 p q)).trans ?_
  rw [← Equiv.sum_comp (contrEquiv1 dot_S5000x128_S128x8_S5000x8_1_0_0_1_n_n 128 rfl rfl).symm]
  refine Finset.sum_congr rfl fun k _ => ?_
  have hk := contrEquiv1_symm_val dot_S5000x128_S128x8_S5000x8_1_0_0_1_n_n 128 rfl rfl k
  have el : dot_S5000x128_S128x8_S5000x8_1_0_0_1_n_n.lhsIdx (ix2 p q) ((contrEquiv1 dot_S5000x128_S128x8_S5000x8_1_0_0_1_n_n 128 rfl rfl).symm k) = ix2 p k :=
    funext fun a => Fin.ext (by
      match a with
      | ⟨0, _⟩ => exact blockProduct8_apply_lhs0 _ _
      | ⟨1, _⟩ => exact (blockProduct8_apply_lhs1 _ _).trans hk)
  have er : dot_S5000x128_S128x8_S5000x8_1_0_0_1_n_n.rhsIdx (ix2 p q) ((contrEquiv1 dot_S5000x128_S128x8_S5000x8_1_0_0_1_n_n 128 rfl rfl).symm k) = ix2 k q :=
    funext fun a => Fin.ext (by
      match a with
      | ⟨0, _⟩ => exact (blockProduct8_apply_rhs0 _ _).trans hk
      | ⟨1, _⟩ => exact blockProduct8_apply_rhs1 _ _)
  rw [el, er]

/-- The hidden activation of a row block: max(a[p,k]·d[p] + b[k], 0). -/
theorem hidden_apply (v0 : Vec Ideal S5000x128 .f32) (v2 : Vec Ideal S5000x1 .f32) (v6 : Vec Ideal S128 .f32)
    (p : Fin 5000) (k : Fin 128) :
    maximumf (addf (mulf (shapeCast S5000x128 v0 shapeCasts_S5000x128_S5000x128)
        (broadcastTo S5000x128 (shapeCast S5000x1 v2 shapeCasts_S5000x1_S5000x1) broadcasts_S5000x1_S5000x128))
        (broadcastTo S5000x128 (shapeCast S1x128 v6 shapeCasts_S128_S1x128) broadcasts_S1x128_S5000x128))
      (broadcast S5000x128 (Scalar.ofBits (F := Ideal) .f32 0x00000000#32)) (ix2 p k)
      = max (v0 (ix2 p k) * v2 (ix2 p (0 : Fin 1)) + v6 (ix1 k)) 0 := by
  rw [maximumf_apply, addf_apply, mulf_apply, broadcast_apply, shapeCast_self, shapeCast_self,
    broadcastTo_a1_ab_apply, broadcastTo_1b_ab_apply, shapeCast_a_1a_apply]
  show max _ (Ideal.ofBits .f32 0x00000000#32) = _
  rw [Ideal.ofBits_zero_f32]

/-- The first body's stored block at (p, q). -/
theorem pay0_apply (v0 : Vec Ideal S5000x128 .f32) (v2 : Vec Ideal S128x128 .f32) (v5 : Vec Ideal S5000x1 .f32)
    (p : Fin 5000) (q : Fin 128) :
    k0_pay1 v0 v2 v5 (ix2 p q) = (∑ k : Fin 128, v0 (ix2 p k) * v2 (ix2 k q)) * v5 (ix2 p (0 : Fin 1)) := by
  unfold k0_pay1
  rw [mulf_apply, blockProduct128_apply, shapeCast_self, broadcastTo_a1_ab_apply]
  rfl

/-- The second body's stored block at (p, q). -/
theorem pay1_apply (v0 : Vec Ideal S5000x128 .f32) (v2 : Vec Ideal S5000x1 .f32) (v6 : Vec Ideal S128 .f32)
    (v13 : Vec Ideal S128x128 .f32) (v16 : Vec Ideal S5000x1 .f32) (p : Fin 5000) (q : Fin 128) :
    k1_pay1 v0 v2 v6 v13 v16 (ix2 p q)
      = (∑ k : Fin 128, max (v0 (ix2 p k) * v2 (ix2 p (0 : Fin 1)) + v6 (ix1 k)) 0 * v13 (ix2 k q))
        * v16 (ix2 p (0 : Fin 1)) := by
  unfold k1_pay1
  rw [mulf_apply, blockProduct128_apply, shapeCast_self (v := v16), broadcastTo_a1_ab_apply]
  refine congrArg (· * v16 (ix2 p (0 : Fin 1))) (Finset.sum_congr rfl fun k _ => ?_)
  rw [truncf_apply, truncf_apply, hidden_apply]

/-- The third body's stored block at (p, q). -/
theorem pay2_apply (v0 : Vec Ideal S5000x128 .f32) (v2 : Vec Ideal S5000x1 .f32) (v6 : Vec Ideal S128 .f32)
    (v13 : Vec Ideal S128x8 .f32) (v16 : Vec Ideal S8 .f32) (p : Fin 5000) (q : Fin 8) :
    k2_pay1 v0 v2 v6 v13 v16 (ix2 p q)
      = (∑ k : Fin 128, max (v0 (ix2 p k) * v2 (ix2 p (0 : Fin 1)) + v6 (ix1 k)) 0 * v13 (ix2 k q))
        + v16 (ix1 q) := by
  unfold k2_pay1
  rw [addf_apply, blockProduct8_apply, broadcastTo_1b_ab_apply, shapeCast_a_1a_apply]
  refine congrArg (· + v16 (ix1 q)) (Finset.sum_congr rfl fun k _ => ?_)
  rw [truncf_apply, truncf_apply, hidden_apply]

end Cert.KernelIdeal.Pay

end
-- ==== Proof.Spec.lean ====
/-
  The three dense stages of a two-layer graph convolution, each as one function of whole arrays.

  With a the aggregated features [N, K], d the per-node normaliser as a column [N, 1], b a bias [K] and w a weight
  matrix [K, C]:
    hidden        h[n,k] = max(a[n,k]·d[n] + b[k], 0)
    scaledProduct   (x, w, d)[n,j] = (Σ_k x[n,k]·w[k,j]) · d[n]
    hiddenScaled    (a, d, b, w)[n,j] = (Σ_k h[n,k]·w[k,j]) · d[n]
    hiddenBiased    (a, d, b, w, c)[n,j] = (Σ_k h[n,k]·w[k,j]) + c[j]
  over the extended reals, index by index.
-/
import Idealize.ShloMosaic.PureOps.Ideal
import Idealize.ShloMosaic.Lib.ValueIdx

noncomputable section

open scoped BigOperators

namespace Cert.Gcn

open Idealize.ShloMosaic Idealize.ShloMosaic.ValueIdx

/-- A matrix of extended reals. -/
abbrev Mat (a b : ℕ) := (⟨2, ![a, b]⟩ : Shape).Idx → EReal
/-- A vector of extended reals. -/
abbrev Vect (a : ℕ) := (⟨1, ![a]⟩ : Shape).Idx → EReal

variable {N K C : ℕ}

/-- The hidden activation max(a[n,k]·d[n] + b[k], 0). -/
def hidden (a : Mat N K) (d : Mat N 1) (b : Vect K) (n : Fin N) (k : Fin K) : EReal :=
  max (a (ix2 n k) * d (ix2 n (0 : Fin 1)) + b (ix1 k)) 0

/-- (Σ_k x[n,k]·w[k,j]) · d[n]. -/
def scaledProduct (x : Mat N K) (w : Mat K C) (d : Mat N 1) : Mat N C := fun i =>
  (∑ k : Fin K, x (ix2 ⟨(i 0).val, idx2_lt0 i⟩ k) * w (ix2 k ⟨(i 1).val, idx2_lt1 i⟩))
    * d (ix2 ⟨(i 0).val, idx2_lt0 i⟩ (0 : Fin 1))

/-- (Σ_k h[n,k]·w[k,j]) · d[n]. -/
def hiddenScaled (a : Mat N K) (d : Mat N 1) (b : Vect K) (w : Mat K C) : Mat N C := fun i =>
  (∑ k : Fin K, hidden a d b ⟨(i 0).val, idx2_lt0 i⟩ k * w (ix2 k ⟨(i 1).val, idx2_lt1 i⟩))
    * d (ix2 ⟨(i 0).val, idx2_lt0 i⟩ (0 : Fin 1))

/-- (Σ_k h[n,k]·w[k,j]) + c[j]. -/
def hiddenBiased (a : Mat N K) (d : Mat N 1) (b : Vect K) (w : Mat K C) (c : Vect C) : Mat N C := fun i =>
  (∑ k : Fin K, hidden a d b ⟨(i 0).val, idx2_lt0 i⟩ k * w (ix2 k ⟨(i 1).val, idx2_lt1 i⟩))
    + c (ix1 ⟨(i 1).val, idx2_lt1 i⟩)

theorem scaledProduct_apply (x : Mat N K) (w : Mat K C) (d : Mat N 1) (n : Fin N) (j : Fin C) :
    scaledProduct x w d (ix2 n j) = (∑ k : Fin K, x (ix2 n k) * w (ix2 k j)) * d (ix2 n (0 : Fin 1)) := rfl

theorem hiddenScaled_apply (a : Mat N K) (d : Mat N 1) (b : Vect K) (w : Mat K C) (n : Fin N) (j : Fin C) :
    hiddenScaled a d b w (ix2 n j) = (∑ k : Fin K, hidden a d b n k * w (ix2 k j)) * d (ix2 n (0 : Fin 1)) := rfl

theorem hiddenBiased_apply (a : Mat N K) (d : Mat N 1) (b : Vect K) (w : Mat K C) (c : Vect C) (n : Fin N) (j : Fin C) :
    hiddenBiased a d b w c (ix2 n j) = (∑ k : Fin K, hidden a d b n k * w (ix2 k j)) + c (ix1 j) := rfl

end Cert.Gcn

end
-- ==== Proof.KReg0.lean ====
/-
  What the first region leaves in its output array.

  The region runs over 20 row blocks of 5000 rows.  At block t it reads rows 5000·t … 5000·t + 4999 of the features and of
  the normaliser column, and the whole weight matrix, and writes back the same rows of the output.  Row p of the stored
  block is (Σ_k x[5000·t + p, k]·w[k, q]) · d[5000·t + p], which is row 5000·t + p of scaledProduct x w d; the 20 blocks
  tile the array (row r lies in block r / 5000), so the array ends holding scaledProduct x w d.
-/
import proofs.«178645_j89919435309559_2_alg».proof.Proof.Gen.KernelIdeal.Frame
import proofs.«178645_j89919435309559_2_alg».proof.Proof.KPay
import proofs.«178645_j89919435309559_2_alg».proof.Proof.Spec
import Idealize.ShloMosaic.Lib.Pipeline.Value

set_option maxRecDepth 16384

noncomputable section

open scoped BigOperators

namespace Cert.KernelIdeal.Reg0

open Cert.KernelIdeal Cert.KernelIdeal.Gen Cert.KernelIdeal.Pay Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the row-blocked windows sit at block row t, the weight matrix at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of block t is a row of the array. -/
theorem row_lt (t : Fin cfg0.N) (p : Fin 5000) : t.val * 5000 + p.val < 100000 := by
  have h : t.val < 20 := Nat.lt_of_lt_of_eq t.isLt N_0
  omega

/-- The feature block at point t: rows 5000·t … of the features. -/
theorem iblk_x (c : Dev nD) (t : Fin cfg0.N) (p : Fin 5000) (k : Fin 128) (n : Fin 100000)
    (hn : n.val = t.val * 5000 + p.val) :
    (iblk0 V c 0 t : Vec Ideal S5000x128 .f32) (ix2 p k) = (V c main_arg0 : S100000x128.Idx → EReal) (ix2 n k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * p.val = n.val; rw [e0, hn]; omega
  | ⟨1, _⟩ => show win0_0.index t 1 * 128 + 1 * k.val = k.val; rw [e1]; omega

/-- The weight block at every point: the whole weight matrix. -/
theorem iblk_w (c : Dev nD) (t : Fin cfg0.N) (k : Fin 128) (q : Fin 128) :
    (iblk0 V c 1 t : Vec Ideal S128x128 .f32) (ix2 k q) = (V c main_arg2 : S128x128.Idx → EReal) (ix2 k q) := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t 0 * 128 + 1 * k.val = k.val; rw [e0]; omega
  | ⟨1, _⟩ => show win0_1.index t 1 * 128 + 1 * q.val = q.val; rw [e1]; omega

/-- The normaliser block at point t: rows 5000·t … of the normaliser column. -/
theorem iblk_d (c : Dev nD) (t : Fin cfg0.N) (p : Fin 5000) (n : Fin 100000)
    (hn : n.val = t.val * 5000 + p.val) :
    (iblk0 V c 2 t : Vec Ideal S5000x1 .f32) (ix2 p (0 : Fin 1)) = (V c main_v12 : S100000x1.Idx → EReal) (ix2 n (0 : Fin 1)) := by
  obtain ⟨-, -, -, -, e0, e1, -⟩ := idx_facts t
  unfold iblk0
  rw [View.read_apply]
  show V c main_v12 _ = V c main_v12 _
  congr 1
  funext a
  apply Fin.ext
  match a with
  | ⟨0, _⟩ => show win0_2.index t 0 * 5000 + 1 * p.val = n.val; rw [e0, hn]; omega
  | ⟨1, _⟩ => show win0_2.index t 1 * 1 + 1 * 0 = 0; rw [e1]

/-- WHAT POINT t WRITES BACK is block t of scaledProduct x w d of the arrays as the region finds them. -/
theorem flushed_eq (c : Dev nD) (t : Fin cfg0.N) :
    (dat0 V c).flushed 3 t = ((cfg0.win 3).blk t).view.read (Elt Ideal)
      (scaledProduct (V c main_arg0) (V c main_arg2) (V c main_v12)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2,
    View.ld_unit_zero (S := S5000x1) hz2]
  obtain ⟨-, -, -, -, -, -, e0, e1⟩ := idx_facts t
  refine funext fun (j : S5000x128.Idx) => ?_
  obtain ⟨p, q, rfl⟩ : ∃ (p : Fin 5000) (q : Fin 128), j = ix2 p q := ⟨j 0, j 1, eq_ix2 j⟩
  have e3 : ((cfg0.win 3).blk t).view.emb (ix2 p q) = ix2 (⟨t.val * 5000 + p.val, row_lt t p⟩ : Fin 100000) q := by
    funext a
    apply Fin.ext
    match a with
    | ⟨0, _⟩ => show win0_3.index t 0 * 5000 + 1 * p.val = t.val * 5000 + p.val; rw [e0]; omega
    | ⟨1, _⟩ => show win0_3.index t 1 * 128 + 1 * q.val = q.val; rw [e1]; omega
  show k0_pay1 (iblk0 V c 0 t) (iblk0 V c 1 t) (iblk0 V c 2 t) (ix2 p q)
    = scaledProduct (V c main_arg0) (V c main_arg2) (V c main_v12) (((cfg0.win 3).blk t).view.emb (ix2 p q))
  rw [e3, scaledProduct_apply]
  refine (pay0_apply _ _ _ p q).trans ?_
  rw [iblk_d V c t p ⟨t.val * 5000 + p.val, row_lt t p⟩ rfl]
  refine congrArg (· * _) (Finset.sum_congr rfl fun k _ => ?_)
  rw [iblk_x V c t p k ⟨t.val * 5000 + p.val, row_lt t p⟩ rfl, iblk_w V c t k q]

/-- An index of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v13).slice (win0_3.rect t)).set ↔ _
  rw [View.set_slice_whole, Rect.mem_set_unit]
  exact Iff.rfl

/-- Row r lies in block r / 5000: the blocks cover the array. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  rw [mem_blk]
  obtain ⟨-, -, -, -, -, -, e0, e1⟩ := idx_facts ⟨(i 0).val / 5000, by rw [hN]; omega⟩
  intro a
  match a with
  | ⟨0, _⟩ =>
    show win0_3.index _ 0 * 5000 ≤ (i 0).val ∧ (i 0).val < win0_3.index _ 0 * 5000 + 5000
    rw [e0]
    show (i 0).val / 5000 * 5000 ≤ (i 0).val ∧ (i 0).val < (i 0).val / 5000 * 5000 + 5000
    omega
  | ⟨1, _⟩ =>
    show win0_3.index _ 1 * 128 ≤ (i 1).val ∧ (i 1).val < win0_3.index _ 1 * 128 + 128
    rw [e1]
    omega

/-- THE OUTPUT ARRAY after the region: scaledProduct of the arrays as the region finds them. -/
theorem final (c : Dev nD) :
    (dat0 V c).arrAt 3 cfg0.N = scaledProduct (V c main_arg0) (V c main_arg2) (V c main_v12) :=
  (dat0 V c).arrAt_eq_of_cover 3 _ (fun t _ => flushed_eq V c t) cover

end Cert.KernelIdeal.Reg0

end
-- ==== Proof.KReg1.lean ====
/-
  What the second region leaves in its output array.

  Over 20 row blocks of 5000 rows: at block t the region reads rows 5000·t … of the first aggregate and of the normaliser
  column, the whole bias vector and weight matrix, and writes back the same rows of the output.  Row p of the stored block is
  (Σ_k max(a[r,k]·d[r] + b[k], 0)·w[k,q]) · d[r] with r = 5000·t + p, which is row r of hiddenScaled a d b w; the blocks
  tile the array, so the array ends holding hiddenScaled a d b w.
-/
import proofs.«178645_j89919435309559_2_alg».proof.Proof.Gen.KernelIdeal.Frame
import proofs.«178645_j89919435309559_2_alg».proof.Proof.KPay
import proofs.«178645_j89919435309559_2_alg».proof.Proof.Spec
import Idealize.ShloMosaic.Lib.Pipeline.Value

set_option maxRecDepth 16384

noncomputable section

open scoped BigOperators

namespace Cert.KernelIdeal.Reg1

open Cert.KernelIdeal Cert.KernelIdeal.Gen Cert.KernelIdeal.Pay Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-blocked windows sit at block row t, the resident ones at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of block t is a row of the array. -/
theorem row_lt (t : Fin cfg1.N) (p : Fin 5000) : t.val * 5000 + p.val < 100000 := by
  have h : t.val < 20 := Nat.lt_of_lt_of_eq t.isLt N_1
  omega

/-- The aggregate block at point t: rows 5000·t … of the aggregate. -/
theorem iblk_a (c : Dev nD) (t : Fin cfg1.N) (p : Fin 5000) (k : Fin 128) (n : Fin 100000)
    (hn : n.val = t.val * 5000 + p.val) :
    (iblk1 V c 0 t : Vec Ideal S5000x128 .f32) (ix2 p k) = (V c main_v23 : S100000x128.Idx → EReal) (ix2 n k) := by
  have e0 := (idx_facts t).1
  have e1 := (idx_facts t).2.1
  unfold iblk1
  rw [View.read_apply]
  show V c main_v23 _ = V c main_v23 _
  congr 1
  funext a
  apply Fin.ext
  match a with
  | ⟨0, _⟩ => show win1_0.index t 0 * 5000 + 1 * p.val = n.val; rw [e0, hn]; omega
  | ⟨1, _⟩ => show win1_0.index t 1 * 128 + 1 * k.val = k.val; rw [e1]; omega

/-- The normaliser block at point t: rows 5000·t … of the normaliser column. -/
theorem iblk_d (c : Dev nD) (t : Fin cfg1.N) (p : Fin 5000) (n : Fin 100000)
    (hn : n.val = t.val * 5000 + p.val) :
    (iblk1 V c 1 t : Vec Ideal S5000x1 .f32) (ix2 p (0 : Fin 1)) = (V c main_v12 : S100000x1.Idx → EReal) (ix2 n (0 : Fin 1)) := by
  have e0 := (idx_facts t).2.2.1
  have e1 := (idx_facts t).2.2.2.1
  unfold iblk1
  rw [View.read_apply]
  show V c main_v12 _ = V c main_v12 _
  congr 1
  funext a
  apply Fin.ext
  match a with
  | ⟨0, _⟩ => show win1_1.index t 0 * 5000 + 1 * p.val = n.val; rw [e0, hn]; omega
  | ⟨1, _⟩ => show win1_1.index t 1 * 1 + 1 * 0 = 0; rw [e1]

/-- The bias block at every point: the whole bias vector. -/
theorem iblk_b (c : Dev nD) (t : Fin cfg1.N) (k : Fin 128) :
    (iblk1 V c 2 t : Vec Ideal S128 .f32) (ix1 k) = (V c main_arg3 : S128.Idx → EReal) (ix1 k) := by
  have e0 := (idx_facts t).2.2.2.2.1
  unfold iblk1
  rw [View.read_apply]
  show V c main_arg3 _ = V c main_arg3 _
  congr 1
  funext a
  apply Fin.ext
  match a with
  | ⟨0, _⟩ => show win1_2.index t 0 * 128 + 1 * k.val = k.val; rw [e0]; omega

/-- The weight block at every point: the whole weight matrix. -/
theorem iblk_w (c : Dev nD) (t : Fin cfg1.N) (k : Fin 128) (q : Fin 128) :
    (iblk1 V c 3 t : Vec Ideal S128x128 .f32) (ix2 k q) = (V c main_arg4 : S128x128.Idx → EReal) (ix2 k q) := by
  have e0 := (idx_facts t).2.2.2.2.2.1
  have e1 := (idx_facts t).2.2.2.2.2.2.1
  unfold iblk1
  rw [View.read_apply]
  show V c main_arg4 _ = V c main_arg4 _
  congr 1
  funext a
  apply Fin.ext
  match a with
  | ⟨0, _⟩ => show win1_3.index t 0 * 128 + 1 * k.val = k.val; rw [e0]; omega
  | ⟨1, _⟩ => show win1_3.index t 1 * 128 + 1 * q.val = q.val; rw [e1]; omega

/-- WHAT POINT t WRITES BACK is block t of hiddenScaled a d b w of the arrays as the region finds them. -/
theorem flushed_eq (c : Dev nD) (t : Fin cfg1.N) :
    (dat1 V c).flushed 4 t = ((cfg1.win 4).blk t).view.read (Elt Ideal)
      (hiddenScaled (V c main_v23) (V c main_v12) (V c main_arg3) (V c main_arg4)) := by
  show (cfg1.win 4).cut (grid1.coords t) ((dat1 V c).after 4 t) = _
  rw [after1_4]
  unfold out1_4
  rw [View.canon_unit_zero hz2]
  simp only [View.ld_unit_zero (S := S5000x128) hz2, View.ld_unit_zero (S := S128x128) hz2,
    View.ld_unit_zero (S := S5000x1) hz2, View.ld_unit_zero (S := S128) hz1]
  have e0 := (idx_facts t).2.2.2.2.2.2.2.1
  have e1 := (idx_facts t).2.2.2.2.2.2.2.2
  refine funext fun (j : S5000x128.Idx) => ?_
  obtain ⟨p, q, rfl⟩ : ∃ (p : Fin 5000) (q : Fin 128), j = ix2 p q := ⟨j 0, j 1, eq_ix2 j⟩
  have e3 : ((cfg1.win 4).blk t).view.emb (ix2 p q) = ix2 (⟨t.val * 5000 + p.val, row_lt t p⟩ : Fin 100000) q := by
    funext a
    apply Fin.ext
    match a with
    | ⟨0, _⟩ => show win1_4.index t 0 * 5000 + 1 * p.val = t.val * 5000 + p.val; rw [e0]; omega
    | ⟨1, _⟩ => show win1_4.index t 1 * 128 + 1 * q.val = q.val; rw [e1]; omega
  show k1_pay1 (iblk1 V c 0 t) (iblk1 V c 1 t) (iblk1 V c 2 t) (iblk1 V c 3 t) (iblk1 V c 1 t) (ix2 p q)
    = hiddenScaled (V c main_v23) (V c main_v12) (V c main_arg3) (V c main_arg4) (((cfg1.win 4).blk t).view.emb (ix2 p q))
  rw [e3, hiddenScaled_apply]
  refine (pay1_apply _ _ _ _ _ p q).trans ?_
  rw [iblk_d V c t p ⟨t.val * 5000 + p.val, row_lt t p⟩ rfl]
  refine congrArg (· * _) (Finset.sum_congr rfl fun k _ => ?_)
  rw [iblk_a V c t p k ⟨t.val * 5000 + p.val, row_lt t p⟩ rfl, iblk_b V c t k, iblk_w V c t k q]
  rfl

/-- An index of the array is in point t's block iff each coordinate is in the block's range on its axis. -/
theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v24).slice (win1_4.rect t)).set ↔ _
  rw [View.set_slice_whole, Rect.mem_set_unit]
  exact Iff.rfl

/-- Row r lies in block r / 5000: the blocks cover the array. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_4 _, ?_⟩
  rw [mem_blk]
  have e0 := (idx_facts ⟨(i 0).val / 5000, by rw [hN]; omega⟩).2.2.2.2.2.2.2.1
  have e1 := (idx_facts ⟨(i 0).val / 5000, by rw [hN]; omega⟩).2.2.2.2.2.2.2.2
  intro a
  match a with
  | ⟨0, _⟩ =>
    show win1_4.index _ 0 * 5000 ≤ (i 0).val ∧ (i 0).val < win1_4.index _ 0 * 5000 + 5000
    rw [e0]
    show (i 0).val / 5000 * 5000 ≤ (i 0).val ∧ (i 0).val < (i 0).val / 5000 * 5000 + 5000
    omega
  | ⟨1, _⟩ =>
    show win1_4.index _ 1 * 128 ≤ (i 1).val ∧ (i 1).val < win1_4.index _ 1 * 128 + 128
    rw [e1]
    omega

/-- THE OUTPUT ARRAY after the region: hiddenScaled of the arrays as the region finds them. -/
theorem final (c : Dev nD) :
    (dat1 V c).arrAt 4 cfg1.N = hiddenScaled (V c main_v23) (V c main_v12) (V c main_arg3) (V c main_arg4) :=
  (dat1 V c).arrAt_eq_of_cover 4 _ (fun t _ => flushed_eq V c t) cover

end Cert.KernelIdeal.Reg1

end
-- ==== Proof.KReg2.lean ====
/-
  What the third region leaves in its output array.

  Over 20 row blocks of 5000 rows: at block t the region reads rows 5000·t … of the second aggregate and of the normaliser
  column, the whole bias vector, the [128, 8] weight matrix and the output bias, and writes back the same rows of the [100000, 8]
  output.  Row p of the stored block is (Σ_k max(a[r,k]·d[r] + b[k], 0)·w[k,q]) + c[q] with r = 5000·t + p, which is row r of
  hiddenBiased a d b w c; the blocks tile the array, so the array ends holding hiddenBiased a d b w c.
-/
import proofs.«178645_j89919435309559_2_alg».proof.Proof.Gen.KernelIdeal.Frame
import proofs.«178645_j89919435309559_2_alg».proof.Proof.KPay
import proofs.«178645_j89919435309559_2_alg».proof.Proof.Spec
import Idealize.ShloMosaic.Lib.Pipeline.Value

set_option maxRecDepth 16384

noncomputable section

open scoped BigOperators

namespace Cert.KernelIdeal.Reg2

open Cert.KernelIdeal Cert.KernelIdeal.Gen Cert.KernelIdeal.Pay Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-blocked windows sit at block row t, the resident ones at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Row p of block t is a row of the array. -/
theorem row_lt (t : Fin cfg2.N) (p : Fin 5000) : t.val * 5000 + p.val < 100000 := by
  have h : t.val < 20 := Nat.lt_of_lt_of_eq t.isLt N_2
  omega

/-- The aggregate block at point t: rows 5000·t … of the aggregate. -/
theorem iblk_a (c : Dev nD) (t : Fin cfg2.N) (p : Fin 5000) (k : Fin 128) (n : Fin 100000)
    (hn : n.val = t.val * 5000 + p.val) :
    (iblk2 V c 0 t : Vec Ideal S5000x128 .f32) (ix2 p k) = (V c main_v34 : S100000x128.Idx → EReal) (ix2 n k) := by
  have e0 := (idx_facts t).1
  have e1 := (idx_facts t).2.1
  unfold iblk2
  rw [View.read_apply]
  show V c main_v34 _ = V c main_v34 _
  congr 1
  funext a
  apply Fin.ext
  match a with
  | ⟨0, _⟩ => show win2_0.index t 0 * 5000 + 1 * p.val = n.val; rw [e0, hn]; omega
  | ⟨1, _⟩ => show win2_0.index t 1 * 128 + 1 * k.val = k.val; rw [e1]; omega

/-- The normaliser block at point t: rows 5000·t … of the normaliser column. -/
theorem iblk_d (c : Dev nD) (t : Fin cfg2.N) (p : Fin 5000) (n : Fin 100000)
    (hn : n.val = t.val * 5000 + p.val) :
    (iblk2 V c 1 t : Vec Ideal S5000x1 .f32) (ix2 p (0 : Fin 1)) = (V c main_v12 : S100000x1.Idx → EReal) (ix2 n (0 : Fin 1)) := by
  have e0 := (idx_facts t).2.2.1
  have e1 := (idx_facts t).2.2.2.1
  unfold iblk2
  rw [View.read_apply]
  show V c main_v12 _ = V c main_v12 _
  congr 1
  funext a
  apply Fin.ext
  match a with
  | ⟨0, _⟩ => show win2_1.index t 0 * 5000 + 1 * p.val = n.val; rw [e0, hn]; omega
  | ⟨1, _⟩ => show win2_1.index t 1 * 1 + 1 * 0 = 0; rw [e1]

/-- The bias block at every point: the whole bias vector. -/
theorem iblk_b (c : Dev nD) (t : Fin cfg2.N) (k : Fin 128) :
    (iblk2 V c 2 t : Vec Ideal S128 .f32) (ix1 k) = (V c main_arg5 : S128.Idx → EReal) (ix1 k) := by
  have e0 := (idx_facts t).2.2.2.2.1
  unfold iblk2
  rw [View.read_apply]
  show V c main_arg5 _ = V c main_arg5 _
  congr 1
  funext a
  apply Fin.ext
  match a with
  | ⟨0, _⟩ => show win2_2.index t 0 * 128 + 1 * k.val = k.val; rw [e0]; omega

/-- The weight block at every point: the whole weight matrix. -/
theorem iblk_w (c : Dev nD) (t : Fin cfg2.N) (k : Fin 128) (q : Fin 8) :
    (iblk2 V c 3 t : Vec Ideal S128x8 .f32) (ix2 k q) = (V c main_arg6 : S128x8.Idx → EReal) (ix2 k q) := by
  have e0 := (idx_facts t).2.2.2.2.2.1
  have e1 := (idx_facts t).2.2.2.2.2.2.1
  unfold iblk2
  rw [View.read_apply]
  show V c main_arg6 _ = V c main_arg6 _
  congr 1
  funext a
  apply Fin.ext
  match a with
  | ⟨0, _⟩ => show win2_3.index t 0 * 128 + 1 * k.val = k.val; rw [e0]; omega
  | ⟨1, _⟩ => show win2_3.index t 1 * 8 + 1 * q.val = q.val; rw [e1]; omega

/-- The output-bias block at every point: the whole output bias. -/
theorem iblk_c (c : Dev nD) (t : Fin cfg2.N) (k : Fin 8) :
    (iblk2 V c 4 t : Vec Ideal S8 .f32) (ix1 k) = (V c main_arg7 : S8.Idx → EReal) (ix1 k) := by
  have e0 := (idx_facts t).2.2.2.2.2.2.2.1
  unfold iblk2
  rw [View.read_apply]
  show V c main_arg7 _ = V c main_arg7 _
  congr 1
  funext a
  apply Fin.ext
  match a with
  | ⟨0, _⟩ => show win2_4.index t 0 * 8 + 1 * k.val = k.val; rw [e0]; omega

/-- WHAT POINT t WRITES BACK is block t of hiddenBiased a d b w c of the arrays as the region finds them. -/
theorem flushed_eq (c : Dev nD) (t : Fin cfg2.N) :
    (dat2 V c).flushed 5 t = ((cfg2.win 5).blk t).view.read (Elt Ideal)
      (hiddenBiased (V c main_v34) (V c main_v12) (V c main_arg5) (V c main_arg6) (V c main_arg7)) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x8) hz2,
    View.ld_unit_zero (S := S5000x1) hz2, View.ld_unit_zero (S := S128) hz1, View.ld_unit_zero (S := S8) hz1]
  have e0 := (idx_facts t).2.2.2.2.2.2.2.2.1
  have e1 := (idx_facts t).2.2.2.2.2.2.2.2.2
  refine funext fun (j : S5000x8.Idx) => ?_
  obtain ⟨p, q, rfl⟩ : ∃ (p : Fin 5000) (q : Fin 8), j = ix2 p q := ⟨j 0, j 1, eq_ix2 j⟩
  have e3 : ((cfg2.win 5).blk t).view.emb (ix2 p q) = ix2 (⟨t.val * 5000 + p.val, row_lt t p⟩ : Fin 100000) q := by
    funext a
    apply Fin.ext
    match a with
    | ⟨0, _⟩ => show win2_5.index t 0 * 5000 + 1 * p.val = t.val * 5000 + p.val; rw [e0]; omega
    | ⟨1, _⟩ => show win2_5.index t 1 * 8 + 1 * q.val = q.val; rw [e1]; omega
  show k2_pay1 (iblk2 V c 0 t) (iblk2 V c 1 t) (iblk2 V c 2 t) (iblk2 V c 3 t) (iblk2 V c 4 t) (ix2 p q)
    = hiddenBiased (V c main_v34) (V c main_v12) (V c main_arg5) (V c main_arg6) (V c main_arg7)
        (((cfg2.win 5).blk t).view.emb (ix2 p q))
  rw [e3, hiddenBiased_apply]
  refine (pay2_apply _ _ _ _ _ p q).trans ?_
  rw [iblk_d V c t p ⟨t.val * 5000 + p.val, row_lt t p⟩ rfl, iblk_c V c t q]
  refine congrArg (· + _) (Finset.sum_congr rfl fun k _ => ?_)
  rw [iblk_a V c t p k ⟨t.val * 5000 + p.val, row_lt t p⟩ rfl, iblk_b V c t k, iblk_w V c t k q]
  rfl

/-- An index of the array is in point t's block iff each coordinate is in the block's range on its axis. -/
theorem mem_blk (t : Fin cfg2.N) (i : S100000x8.Idx) :
    i ∈ ((cfg2.win 5).blk t).view.set ↔ ∀ a : Fin 2, win2_5.index t a * S5000x8.size a ≤ (i a).val
      ∧ (i a).val < win2_5.index t a * S5000x8.size a + S5000x8.size a := by
  show i ∈ ((View.whole main_v35).slice (win2_5.rect t)).set ↔ _
  rw [View.set_slice_whole, Rect.mem_set_unit]
  exact Iff.rfl

/-- Row r lies in block r / 5000: the blocks cover the array. -/
theorem cover (i : S100000x8.Idx) :
    ∃ t : Fin cfg2.N, (cfg2.win 5).flush t = true ∧ i ∈ ((cfg2.win 5).blk t).view.set := by
  have hi0 : (i 0).val < 100000 := (i 0).isLt
  have hi1 : (i 1).val < 8 := (i 1).isLt
  have hN : cfg2.N = 20 := N_2
  refine ⟨⟨(i 0).val / 5000, by rw [hN]; omega⟩, flush2_5 _, ?_⟩
  rw [mem_blk]
  have e0 := (idx_facts ⟨(i 0).val / 5000, by rw [hN]; omega⟩).2.2.2.2.2.2.2.2.1
  have e1 := (idx_facts ⟨(i 0).val / 5000, by rw [hN]; omega⟩).2.2.2.2.2.2.2.2.2
  intro a
  match a with
  | ⟨0, _⟩ =>
    show win2_5.index _ 0 * 5000 ≤ (i 0).val ∧ (i 0).val < win2_5.index _ 0 * 5000 + 5000
    rw [e0]
    show (i 0).val / 5000 * 5000 ≤ (i 0).val ∧ (i 0).val < (i 0).val / 5000 * 5000 + 5000
    omega
  | ⟨1, _⟩ =>
    show win2_5.index _ 1 * 8 ≤ (i 1).val ∧ (i 1).val < win2_5.index _ 1 * 8 + 8
    rw [e1]
    omega

/-- THE OUTPUT ARRAY after the region: hiddenBiased of the arrays as the region finds them. -/
theorem final (c : Dev nD) :
    (dat2 V c).arrAt 5 cfg2.N
      = hiddenBiased (V c main_v34) (V c main_v12) (V c main_arg5) (V c main_arg6) (V c main_arg7) :=
  (dat2 V c).arrAt_eq_of_cover 5 _ (fun t _ => flushed_eq V c t) cover

end Cert.KernelIdeal.Reg2

end
-- ==== Proof.KHost.lean ====
/-
  The kernel program's buffers at each boundary between its host stretches and its three regions.

  From the edge array the first stretch builds the source and destination indices of the edges (each with one self loop
  per node appended), counts the edges that land on each node, and takes the reciprocal square root of the count as a
  column: the normaliser.  The stretch before the second and before the third region gathers the rows of the previous
  region's output at the source indices (a negative index moved up by the number of nodes first) and adds each gathered row
  into the row of a zero array named by the edge's destination index: one aggregation.  Every other buffer a stretch or a
  region does not write is carried along unchanged.
-/
import proofs.«178645_j89919435309559_2_alg».proof.Proof.Gen.KernelIdeal.Frame
import proofs.«178645_j89919435309559_2_alg».proof.Proof.LibHostKeeps
import proofs.«178645_j89919435309559_2_alg».proof.Proof.KReg0
import proofs.«178645_j89919435309559_2_alg».proof.Proof.KReg1
import proofs.«178645_j89919435309559_2_alg».proof.Proof.KReg2
import Idealize.ShloMosaic.Lib.StableHlo.Run
import Idealize.ShloMosaic.PureOps.Ideal

set_option maxRecDepth 16384

noncomputable section

namespace Cert.KernelIdeal.Host

open Cert.KernelIdeal Cert.KernelIdeal.Gen Cert.Gcn
open Idealize.ShloMosaic Idealize.ShloMosaic.TcCoe Idealize.SL.Sem
open Idealize.ShloMosaic.Pipeline (Dat)

/-! ## The index arrays, the normaliser and one aggregation, as terms of the program's own operations -/

/-- Row r of the edge array with the node numbers 0 … 99999 appended: the edges' endpoints, self loops last. -/
def endpoints (r : Nat) (hs : S2x1600000.Slices ![r, 0] S1x1600000) (a1 : IVec S2x1600000 32) : IVec S1700000 32 :=
  concatenate S1700000 0
    [⟨S1600000, shapeCast S1600000 (extractStridedSlice S1x1600000 ![r, 0] a1 hs) shapeCasts_S1x1600000_S1600000⟩,
      ⟨S100000, iotaInDim S100000 32 0⟩]
    concatenates_S1600000_S100000_S1700000_d0

/-- The source index of every edge. -/
def srcIdx (a1 : IVec S2x1600000 32) : IVec S1700000 32 := endpoints 0 slices_S2x1600000_S1x1600000_0_0 a1
/-- The destination index of every edge. -/
def dstIdx (a1 : IVec S2x1600000 32) : IVec S1700000 32 := endpoints 1 slices_S2x1600000_S1x1600000_1_0 a1

/-- An index vector as a column of start indices. -/
def asColumn (v : IVec S1700000 32) : IVec S1700000x1 32 := broadcastInDim S1700000x1 ![0] bcast_S1700000_S1700000x1_0 v

/-- A negative index moved up by the number of nodes (the wrap-around a row lookup applies first). -/
def wrapped (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- The number of edges landing on each node. -/
def degree (a1 : IVec S2x1600000 32) : FVec Ideal S100000 .f32 :=
  Host.scatterAdd scatter_S100000_S1700000x1_S1700000_n_0_0_1
    (broadcastInDim S100000 ![] bcast_S_S100000 (constant S_ .f32 0x00000000#32))
    (asColumn (dstIdx a1))
    (broadcastInDim S1700000 ![] bcast_S_S1700000 (constant S_ .f32 0x3F800000#32))

/-- The normaliser 1 / √degree per node. -/
def normaliser (a1 : IVec S2x1600000 32) : FVec Ideal S100000 .f32 := Host.rsqrt (degree a1)

/-- The normaliser as a column. -/
def normaliserColumn (a1 : IVec S2x1600000 32) : FVec Ideal S100000x1 .f32 :=
  shapeCast S100000x1 (normaliser a1) shapeCasts_S100000_S100000x1

/-- One aggregation: the rows of y gathered at the (wrapped) source indices, each added into the row of a zero array
    named by the edge's destination index. -/
def aggregate (s d : IVec S1700000 32) (y : FVec Ideal S100000x128 .f32) : FVec Ideal S100000x128 .f32 :=
  Host.scatterAdd scatter_S100000x128_S1700000x1_S1700000x128_1_0_0_1
    (broadcastInDim S100000x128 ![] bcast_S_S100000x128 (constant S_ .f32 0x00000000#32))
    (asColumn d)
    (Host.gather gather_S100000x128_S1700000x1_S1700000x128_1_0_n_n_0_1_1128 y (asColumn (wrapped s)))

variable (m : (ℓ : Loc nD τ sig) → Buf (Elt Ideal) ℓ) (ρ : Dev nD → PrngReg)

/-! ## After the first stretch -/

theorem W1_v5 (c : Dev nD) : W1 m ρ c (Proc.devRef .tc main_v5) = srcIdx (m ((c : Thread nD τ).loc main_arg1)) := by
  show StableHlo.after hostOps0 (W0 m ρ c) (Proc.devRef .tc main_v5) = _
  after_results
  rfl
theorem W1_v6 (c : Dev nD) : W1 m ρ c (Proc.devRef .tc main_v6) = dstIdx (m ((c : Thread nD τ).loc main_arg1)) := by
  show StableHlo.after hostOps0 (W0 m ρ c) (Proc.devRef .tc main_v6) = _
  after_results
  rfl
theorem W1_v12 (c : Dev nD) :
    W1 m ρ c (Proc.devRef .tc main_v12) = normaliserColumn (m ((c : Thread nD τ).loc main_arg1)) := by
  show StableHlo.after hostOps0 (W0 m ρ c) (Proc.devRef .tc main_v12) = _
  after_results
  rfl
theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  host_keeps hostOps0
theorem W1_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  host_keeps hostOps0
theorem W1_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  host_keeps hostOps0
theorem W1_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4)
  host_keeps hostOps0
theorem W1_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5)
  host_keeps hostOps0
theorem W1_arg6 (c : Dev nD) : W1 m ρ c (Proc.devRef .tc main_arg6) = m ((c : Thread nD τ).loc main_arg6) := by
  show StableHlo.after hostOps0 (W0 m ρ c) (Proc.devRef .tc main_arg6) = W0 m ρ c (Proc.devRef .tc main_arg6)
  host_keeps hostOps0
theorem W1_arg7 (c : Dev nD) : W1 m ρ c (Proc.devRef .tc main_arg7) = m ((c : Thread nD τ).loc main_arg7) := by
  show StableHlo.after hostOps0 (W0 m ρ c) (Proc.devRef .tc main_arg7) = W0 m ρ c (Proc.devRef .tc main_arg7)
  host_keeps hostOps0

/-! ## After the first region -/

theorem W2_v13 (c : Dev nD) : W2 m ρ c (Proc.devRef .tc main_v13)
    = scaledProduct (W1 m ρ c (Proc.devRef .tc main_arg0)) (W1 m ρ c (Proc.devRef .tc main_arg2))
        (W1 m ρ c (Proc.devRef .tc main_v12)) :=
  (W2_arr m ρ c 3).trans (Reg0.final (V1 m ρ) c)
theorem W2_v12 (c : Dev nD) : W2 m ρ c (Proc.devRef .tc main_v12) = W1 m ρ c (Proc.devRef .tc main_v12) :=
  (W2_arr m ρ c 2).trans (((dat0 (V1 m ρ) c).arrAt_in 2 rfl _).trans (A_eq0 (V1 m ρ) c 2))
theorem W2_v5 (c : Dev nD) : W2 m ρ c (Proc.devRef .tc main_v5) = W1 m ρ c (Proc.devRef .tc main_v5) :=
  W2_of_ne m ρ c main_v5 (by decide)
theorem W2_v6 (c : Dev nD) : W2 m ρ c (Proc.devRef .tc main_v6) = W1 m ρ c (Proc.devRef .tc main_v6) :=
  W2_of_ne m ρ c main_v6 (by decide)
theorem W2_arg3 (c : Dev nD) : W2 m ρ c (Proc.devRef .tc main_arg3) = W1 m ρ c (Proc.devRef .tc main_arg3) :=
  W2_of_ne m ρ c main_arg3 (by decide)
theorem W2_arg4 (c : Dev nD) : W2 m ρ c (Proc.devRef .tc main_arg4) = W1 m ρ c (Proc.devRef .tc main_arg4) :=
  W2_of_ne m ρ c main_arg4 (by decide)
theorem W2_arg5 (c : Dev nD) : W2 m ρ c (Proc.devRef .tc main_arg5) = W1 m ρ c (Proc.devRef .tc main_arg5) :=
  W2_of_ne m ρ c main_arg5 (by decide)
theorem W2_arg6 (c : Dev nD) : W2 m ρ c (Proc.devRef .tc main_arg6) = W1 m ρ c (Proc.devRef .tc main_arg6) :=
  W2_of_ne m ρ c main_arg6 (by decide)
theorem W2_arg7 (c : Dev nD) : W2 m ρ c (Proc.devRef .tc main_arg7) = W1 m ρ c (Proc.devRef .tc main_arg7) :=
  W2_of_ne m ρ c main_arg7 (by decide)

/-! ## After the second stretch -/

theorem W3_v23 (c : Dev nD) : W3 m ρ c (Proc.devRef .tc main_v23)
    = aggregate (W2 m ρ c (Proc.devRef .tc main_v5)) (W2 m ρ c (Proc.devRef .tc main_v6))
        (W2 m ρ c (Proc.devRef .tc main_v13)) := by
  show StableHlo.after hostOps1 (W2 m ρ c) (Proc.devRef .tc main_v23) = _
  after_results
  rfl
theorem W3_v5 (c : Dev nD) : W3 m ρ c (Proc.devRef .tc main_v5) = W2 m ρ c (Proc.devRef .tc main_v5) := by
  show StableHlo.after hostOps1 (W2 m ρ c) (Proc.devRef .tc main_v5) = _
  host_keeps hostOps1
theorem W3_v6 (c : Dev nD) : W3 m ρ c (Proc.devRef .tc main_v6) = W2 m ρ c (Proc.devRef .tc main_v6) := by
  show StableHlo.after hostOps1 (W2 m ρ c) (Proc.devRef .tc main_v6) = _
  host_keeps hostOps1
theorem W3_v12 (c : Dev nD) : W3 m ρ c (Proc.devRef .tc main_v12) = W2 m ρ c (Proc.devRef .tc main_v12) := by
  show StableHlo.after hostOps1 (W2 m ρ c) (Proc.devRef .tc main_v12) = _
  host_keeps hostOps1
theorem W3_arg3 (c : Dev nD) : W3 m ρ c (Proc.devRef .tc main_arg3) = W2 m ρ c (Proc.devRef .tc main_arg3) := by
  show StableHlo.after hostOps1 (W2 m ρ c) (Proc.devRef .tc main_arg3) = _
  host_keeps hostOps1
theorem W3_arg4 (c : Dev nD) : W3 m ρ c (Proc.devRef .tc main_arg4) = W2 m ρ c (Proc.devRef .tc main_arg4) := by
  show StableHlo.after hostOps1 (W2 m ρ c) (Proc.devRef .tc main_arg4) = _
  host_keeps hostOps1
theorem W3_arg5 (c : Dev nD) : W3 m ρ c (Proc.devRef .tc main_arg5) = W2 m ρ c (Proc.devRef .tc main_arg5) := by
  show StableHlo.after hostOps1 (W2 m ρ c) (Proc.devRef .tc main_arg5) = _
  host_keeps hostOps1
theorem W3_arg6 (c : Dev nD) : W3 m ρ c (Proc.devRef .tc main_arg6) = W2 m ρ c (Proc.devRef .tc main_arg6) := by
  show StableHlo.after hostOps1 (W2 m ρ c) (Proc.devRef .tc main_arg6) = _
  host_keeps hostOps1
theorem W3_arg7 (c : Dev nD) : W3 m ρ c (Proc.devRef .tc main_arg7) = W2 m ρ c (Proc.devRef .tc main_arg7) := by
  show StableHlo.after hostOps1 (W2 m ρ c) (Proc.devRef .tc main_arg7) = _
  host_keeps hostOps1

/-! ## After the second region -/

theorem W4_v24 (c : Dev nD) : W4 m ρ c (Proc.devRef .tc main_v24)
    = hiddenScaled (W3 m ρ c (Proc.devRef .tc main_v23)) (W3 m ρ c (Proc.devRef .tc main_v12))
        (W3 m ρ c (Proc.devRef .tc main_arg3)) (W3 m ρ c (Proc.devRef .tc main_arg4)) :=
  (W4_arr m ρ c 4).trans (Reg1.final (V3 m ρ) c)
theorem W4_v12 (c : Dev nD) : W4 m ρ c (Proc.devRef .tc main_v12) = W3 m ρ c (Proc.devRef .tc main_v12) :=
  (W4_arr m ρ c 1).trans (((dat1 (V3 m ρ) c).arrAt_in 1 rfl _).trans (A_eq1 (V3 m ρ) c 1))
theorem W4_v5 (c : Dev nD) : W4 m ρ c (Proc.devRef .tc main_v5) = W3 m ρ c (Proc.devRef .tc main_v5) :=
  W4_of_ne m ρ c main_v5 (by decide)
theorem W4_v6 (c : Dev nD) : W4 m ρ c (Proc.devRef .tc main_v6) = W3 m ρ c (Proc.devRef .tc main_v6) :=
  W4_of_ne m ρ c main_v6 (by decide)
theorem W4_arg5 (c : Dev nD) : W4 m ρ c (Proc.devRef .tc main_arg5) = W3 m ρ c (Proc.devRef .tc main_arg5) :=
  W4_of_ne m ρ c main_arg5 (by decide)
theorem W4_arg6 (c : Dev nD) : W4 m ρ c (Proc.devRef .tc main_arg6) = W3 m ρ c (Proc.devRef .tc main_arg6) :=
  W4_of_ne m ρ c main_arg6 (by decide)
theorem W4_arg7 (c : Dev nD) : W4 m ρ c (Proc.devRef .tc main_arg7) = W3 m ρ c (Proc.devRef .tc main_arg7) :=
  W4_of_ne m ρ c main_arg7 (by decide)

/-! ## After the third stretch -/

theorem W5_v34 (c : Dev nD) : W5 m ρ c (Proc.devRef .tc main_v34)
    = aggregate (W4 m ρ c (Proc.devRef .tc main_v5)) (W4 m ρ c (Proc.devRef .tc main_v6))
        (W4 m ρ c (Proc.devRef .tc main_v24)) := by
  show StableHlo.after hostOps2 (W4 m ρ c) (Proc.devRef .tc main_v34) = _
  after_results
  rfl
theorem W5_v12 (c : Dev nD) : W5 m ρ c (Proc.devRef .tc main_v12) = W4 m ρ c (Proc.devRef .tc main_v12) := by
  show StableHlo.after hostOps2 (W4 m ρ c) (Proc.devRef .tc main_v12) = _
  host_keeps hostOps2
theorem W5_arg5 (c : Dev nD) : W5 m ρ c (Proc.devRef .tc main_arg5) = W4 m ρ c (Proc.devRef .tc main_arg5) := by
  show StableHlo.after hostOps2 (W4 m ρ c) (Proc.devRef .tc main_arg5) = _
  host_keeps hostOps2
theorem W5_arg6 (c : Dev nD) : W5 m ρ c (Proc.devRef .tc main_arg6) = W4 m ρ c (Proc.devRef .tc main_arg6) := by
  show StableHlo.after hostOps2 (W4 m ρ c) (Proc.devRef .tc main_arg6) = _
  host_keeps hostOps2
theorem W5_arg7 (c : Dev nD) : W5 m ρ c (Proc.devRef .tc main_arg7) = W4 m ρ c (Proc.devRef .tc main_arg7) := by
  show StableHlo.after hostOps2 (W4 m ρ c) (Proc.devRef .tc main_arg7) = _
  host_keeps hostOps2

/-! ## After the third region -/

theorem W6_v35 (c : Dev nD) : W6 m ρ c (Proc.devRef .tc main_v35)
    = hiddenBiased (W5 m ρ c (Proc.devRef .tc main_v34)) (W5 m ρ c (Proc.devRef .tc main_v12))
        (W5 m ρ c (Proc.devRef .tc main_arg5)) (W5 m ρ c (Proc.devRef .tc main_arg6))
        (W5 m ρ c (Proc.devRef .tc main_arg7)) :=
  (W6_arr m ρ c 5).trans (Reg2.final (V5 m ρ) c)

/-! ## The result as one term of the argument arrays -/

/-- The kernel program's result: two aggregations between the three dense stages. -/
def result (x : FVec Ideal S100000x128 .f32) (a1 : IVec S2x1600000 32) (w1 : FVec Ideal S128x128 .f32)
    (b1 : FVec Ideal S128 .f32) (w2 : FVec Ideal S128x128 .f32) (b2 : FVec Ideal S128 .f32)
    (wfc : FVec Ideal S128x8 .f32) (bfc : FVec Ideal S8 .f32) : FVec Ideal S100000x8 .f32 :=
  hiddenBiased
    (aggregate (srcIdx a1) (dstIdx a1)
      (hiddenScaled (aggregate (srcIdx a1) (dstIdx a1) (scaledProduct x w1 (normaliserColumn a1)))
        (normaliserColumn a1) b1 w2))
    (normaliserColumn a1) b2 wfc bfc

/-- The last boundary's contents of the result buffer is that term of the launch contents of the arguments. -/
theorem W6_result (c : Dev nD) : W6 m ρ c (Proc.devRef .tc main_v35)
    = result (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  rw [W6_v35, W5_v34, W5_v12, W5_arg5, W5_arg6, W5_arg7, W4_v5, W4_v6, W4_v12, W4_arg5, W4_arg6, W4_arg7, W4_v24,
    W3_v23, W3_v5, W3_v6, W3_v12, W3_arg3, W3_arg4, W3_arg5, W3_arg6, W3_arg7,
    W2_v5, W2_v6, W2_v12, W2_v13, W2_arg3, W2_arg4, W2_arg5, W2_arg6, W2_arg7,
    W1_v5, W1_v6, W1_v12, W1_arg0, W1_arg2, W1_arg3, W1_arg4, W1_arg5, W1_arg6, W1_arg7]
  rfl

end Cert.KernelIdeal.Host

end
-- ==== Proof.LibGatherScatter.lean ====
/-
  Gathers of rows and of entries by an array of start indices, the scatter-add that accumulates rows or entries at
  such indices, and two facts about sums of extended reals.

  A row gather of a matrix x : [N, C] at start indices idx : [R, 1] has result row e equal to the row of x whose number
  is idx[e, 0] read as a signed integer and clamped into [0, N − 1]; a vector gather reads one entry the same way.
  A scatter of updates : [R, C] into an operand [N, C] at the same kind of indices sends update element (e, f) to operand
  element (n, g) exactly when idx[e, 0], read signed and NOT clamped, is n, and f = g; a start index outside [0, N − 1]
  sends its update nowhere.  Multiplication by a non-negative real distributes over a finite sum of extended reals, and
  a sum of ones over a finite set is the number of its elements.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Lib.GatherScatter

open Idealize.ShloMosaic Idealize.ShloMosaic.ValueIdx

/-! ## Row gather: x[idx] of a matrix -/

section Gather
variable {α : Type}

/-- The dimension numbers of a row gather: operand [N, C], start indices [R, 1] (the index vector on axis 1, of length
    one, naming operand axis 0), result [R, C]; operand axis 0 is collapsed (slice size 1), operand axis 1 is the result's
    offset axis 1 (slice size C). -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather read at (e, f): entry f of the operand's row idx[e, 0], the start index read signed and clamped into
    [0, N − 1]. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowsDims N R C wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ =>
    show (rowsDims N R C wf).start (ix2 e f) idx 0 + (rowsDims N R C wf).batchCoord (ix2 e f) 0
      + (rowsDims N R C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 e f) ⟨List.idxOf (0 : Fin 2) (rowsDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N R C wf).start (ix2 e f) idx 1 + (rowsDims N R C wf).batchCoord (ix2 e f) 1
      + (rowsDims N R C wf).offCoord (ix2 e f) 1 = _
    rw [GatherDims.batchCoord_eq_zero _ _ _ List.not_mem_nil]
    have hst : (rowsDims N R C wf).start (ix2 e f) idx 1 = 0 := by
      unfold GatherDims.start
      rw [dif_neg (show (1 : Fin 2) ∉ (rowsDims N R C wf).startIndexMap from
        (by decide : (1 : Fin 2) ∉ ([0] : List (Fin 2))))]
    rw [hst]
    simp only [Nat.add_zero, Nat.zero_add]
    rfl

/-! ## Vector gather: x[idx] of a flat array at a column of start indices -/

/-- The dimension numbers of a vector gather: operand [N], start indices [R, 1] (the index vector on axis 1, of length
    one), result [R]; the operand's one axis is collapsed. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The vector gather read at e: the operand's entry idx[e, 0], the start index read signed and clamped into
    [0, N − 1]. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecDims N R wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecDims N R wf).start (ix1 e) idx 0 + (vecDims N R wf).batchCoord (ix1 e) 0
    + (vecDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 e) ⟨List.idxOf (0 : Fin 1) (vecDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Where a scatter's update lands -/

section Scatter

/-- An update element lands at operand element i exactly when, on every operand axis, the window's start (read signed,
    not clamped) plus the window coordinate is i's coordinate; a sum outside the operand's extent is no coordinate, so the
    update is then dropped. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      intro a
      have h1 := congrArg Fin.val (congrFun (Option.some.inj h) a)
      simp only at h1
      have h2 := hh a
      omega
    · exact absurd h (by simp)
  · intro h
    have hh : ∀ a, 0 ≤ d.start j idx a + (d.window j a : Int) ∧ d.start j idx a + (d.window j a : Int) < s.size a := by
      intro a
      have h1 := h a
      have h2 := (i a).isLt
      omega
    rw [dif_pos hh]
    congr 1
    funext a
    refine Fin.ext ?_
    have h1 := h a
    simp only
    omega

/-- The dimension numbers of a row scatter: operand [N, C], scatter indices [R, 1] (the index vector on axis 1, of length
    one, naming operand axis 0), updates [R, C]; the updates' axis 1 is the window axis and goes to operand axis 1, operand
    axis 0 is an inserted window axis. -/
abbrev rowsScatter (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Update element (e, f) of a row scatter lands at operand element (n, g) exactly when the scatter index idx[e, 0], read
    signed, is n, and the columns agree. -/
theorem rows_resultIdx?_eq_some_iff {N R C w : Nat}
    (wf : ScatterDims.WF ⟨2, ![N, C]⟩ ⟨2, ![R, 1]⟩ ⟨2, ![R, C]⟩ [1] [0] [0] 1)
    (idx : IVec ⟨2, ![R, 1]⟩ w) (e : Fin R) (f : Fin C) (n : Fin N) (g : Fin C) :
    (rowsScatter N R C wf).resultIdx? (ix2 e f) idx = some (ix2 n g)
      ↔ (idx (ix2 e (0 : Fin 1))).toInt = (n.val : Int) ∧ f = g := by
  have hs0 : (rowsScatter N R C wf).start (ix2 e f) idx 0 = (idx (ix2 e (0 : Fin 1))).toInt := by
    unfold ScatterDims.start
    rw [dif_pos (show (0 : Fin 2) ∈ (rowsScatter N R C wf).scatterDimsToOperandDims from List.mem_singleton.mpr rfl)]
    have hsi : (rowsScatter N R C wf).siIdx (ix2 e f)
        ⟨List.idxOf (0 : Fin 2) (rowsScatter N R C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowsScatter N R C wf).start (ix2 e f) idx 1 = 0 := by
    unfold ScatterDims.start
    rw [dif_neg (show (1 : Fin 2) ∉ (rowsScatter N R C wf).scatterDimsToOperandDims from
      (by decide : (1 : Fin 2) ∉ ([0] : List (Fin 2))))]
  have hw0 : (rowsScatter N R C wf).window (ix2 e f) 0 = 0 := by
    unfold ScatterDims.window
    rw [dif_neg (show (0 : Fin 2) ∉ (rowsScatter N R C wf).sKept from
      (by decide : (0 : Fin 2) ∉ (List.finRange 2).filter (· ∉ ([0] : List (Fin 2)))))]
  have hw1 : (rowsScatter N R C wf).window (ix2 e f) 1 = f.val := by
    unfold ScatterDims.window
    rw [dif_pos (show (1 : Fin 2) ∈ (rowsScatter N R C wf).sKept from
      (by decide : (1 : Fin 2) ∈ (List.finRange 2).filter (· ∉ ([0] : List (Fin 2)))))]
    rfl
  rw [resultIdx?_eq_some_iff, Fin.forall_fin_two, hs0, hs1, hw0, hw1]
  show (idx (ix2 e (0 : Fin 1))).toInt + ((0 : Nat) : Int) = (n.val : Int) ∧ (0 : Int) + (f.val : Int) = (g.val : Int) ↔ _
  constructor
  · rintro ⟨h0, h1⟩
    exact ⟨by omega, Fin.ext (by omega)⟩
  · rintro ⟨h0, rfl⟩
    exact ⟨by omega, by omega⟩

/-- The dimension numbers of a vector scatter: operand [N], scatter indices [R, 1] (the index vector on axis 1, of length
    one), updates [R]; no window axis, the operand's one axis is an inserted window axis. -/
abbrev vecScatter (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update element e of a vector scatter lands at operand element n exactly when the scatter index idx[e, 0], read signed,
    is n. -/
theorem vec_resultIdx?_eq_some_iff {N R w : Nat}
    (wf : ScatterDims.WF ⟨1, ![N]⟩ ⟨2, ![R, 1]⟩ ⟨1, ![R]⟩ [] [0] [0] 1)
    (idx : IVec ⟨2, ![R, 1]⟩ w) (e : Fin R) (n : Fin N) :
    (vecScatter N R wf).resultIdx? (ix1 e) idx = some (ix1 n)
      ↔ (idx (ix2 e (0 : Fin 1))).toInt = (n.val : Int) := by
  have hs0 : (vecScatter N R wf).start (ix1 e) idx 0 = (idx (ix2 e (0 : Fin 1))).toInt := by
    unfold ScatterDims.start
    rw [dif_pos (show (0 : Fin 1) ∈ (vecScatter N R wf).scatterDimsToOperandDims from List.mem_singleton.mpr rfl)]
    have hsi : (vecScatter N R wf).siIdx (ix1 e)
        ⟨List.idxOf (0 : Fin 1) (vecScatter N R wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N R wf).window (ix1 e) 0 = 0 := by
    unfold ScatterDims.window
    rw [dif_neg (show (0 : Fin 1) ∉ (vecScatter N R wf).sKept from
      (by decide : (0 : Fin 1) ∉ (List.finRange 1).filter (· ∉ ([0] : List (Fin 1)))))]
  rw [resultIdx?_eq_some_iff, Fin.forall_fin_one, hs0, hw0]
  show (idx (ix2 e (0 : Fin 1))).toInt + ((0 : Nat) : Int) = (n.val : Int) ↔ _
  constructor
  · intro h; omega
  · intro h; omega

end Scatter

/-! ## Sums of extended reals -/

section Sums

/-- Multiplication by a non-negative real distributes over a finite sum of extended reals (it does not for a general
    extended real factor: ⊤ + ⊥ = ⊥ while a negative factor turns it round, and 0 · ⊤ = 0). -/
theorem sum_mul_coe_of_nonneg {ι : Type*} (s : Finset ι) (a : ι → EReal) {r : ℝ} (hr : 0 ≤ r) :
    (∑ j ∈ s, a j) * (r : EReal) = ∑ j ∈ s, a j * (r : EReal) := by
  classical
  induction s using Finset.induction_on with
  | empty => simp
  | insert k s hk ih =>
    rw [Finset.sum_insert hk, Finset.sum_insert hk,
      EReal.right_distrib_of_nonneg_of_ne_top (EReal.coe_nonneg.mpr hr) (EReal.coe_ne_top r), ih]

/-- The same with the sum started at zero, the form a scatter-add into a zero array takes. -/
theorem zero_add_sum_mul_coe_of_nonneg {ι : Type*} (s : Finset ι) (a : ι → EReal) {r : ℝ} (hr : 0 ≤ r) :
    ((0 : EReal) + ∑ j ∈ s, a j) * (r : EReal) = (0 : EReal) + ∑ j ∈ s, a j * (r : EReal) := by
  rw [zero_add, zero_add, sum_mul_coe_of_nonneg s a hr]

end Sums

end Cert.Lib.GatherScatter

end
-- ==== Proof.LibScatterSum.lean ====
/-
  The accumulating scatter read at one element as a sum over the updates that land there, and the degree count.

  A scatter-add of updates : [R, C] into an operand [N, C] at scatter indices idx : [R, 1] leaves at element (n, g) the
  operand's element plus the sum, over the edges e whose index idx[e, 0] (read signed) is n, of update element (e, g):
  an update row goes to one operand row, column by column, and an index outside [0, N − 1] goes nowhere.  The vector
  form is the same without the column.  Scattering ones into zeros therefore counts, at n, the edges whose index is n:
  a natural number, whose reciprocal square root is a non-negative real as soon as the count is positive.
-/
import proofs.«178645_j89919435309559_2_alg».proof.Proof.LibGatherScatter

noncomputable section

open scoped BigOperators

namespace Cert.Lib.GatherScatter

open Idealize.ShloMosaic Idealize.ShloMosaic.ValueIdx

/-! ## A sum over a rank-1 index set -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The scatter-add at an element: a sum over the edges that land there -/

/-- Row scatter-add at (n, g): the operand's element plus the sum of update elements (e, g) over the edges e whose
    scatter index, read signed, is n. -/
theorem scatterAdd_rows_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (g : Fin C) :
    Ideal.hostScatterAdd (rowsScatter N R C wf) x idx upd (ix2 n g)
      = x (ix2 n g) + ∑ e ∈ Finset.univ.filter
          (fun e : Fin R => (idx (ix2 e (0 : Fin 1))).toInt = (n.val : Int)), upd (ix2 e g) := by
  unfold Ideal.hostScatterAdd
  congr 1
  rw [Finset.sum_filter, sum_idx2, Finset.sum_filter]
  refine Finset.sum_congr rfl fun a _ => ?_
  by_cases h : (idx (ix2 a (0 : Fin 1))).toInt = (n.val : Int)
  · rw [if_pos h, Finset.sum_eq_single g]
    · rw [if_pos ((rows_resultIdx?_eq_some_iff wf idx a g n g).mpr ⟨h, rfl⟩)]
    · intro b _ hb
      rw [if_neg (fun hh => hb ((rows_resultIdx?_eq_some_iff wf idx a b n g).mp hh).2)]
    · intro hg
      exact absurd (Finset.mem_univ g) hg
  · rw [if_neg h]
    refine Finset.sum_eq_zero fun b _ => ?_
    rw [if_neg (fun hh => h ((rows_resultIdx?_eq_some_iff wf idx a b n g).mp hh).1)]

/-- Vector scatter-add at n: the operand's element plus the sum of the update elements e over the edges e whose scatter
    index, read signed, is n. -/
theorem scatterAdd_vec_apply {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (n : Fin N) :
    Ideal.hostScatterAdd (vecScatter N R wf) x idx upd (ix1 n)
      = x (ix1 n) + ∑ e ∈ Finset.univ.filter
          (fun e : Fin R => (idx (ix2 e (0 : Fin 1))).toInt = (n.val : Int)), upd (ix1 e) := by
  unfold Ideal.hostScatterAdd
  congr 1
  rw [Finset.sum_filter, sum_idx1, Finset.sum_filter]
  refine Finset.sum_congr rfl fun a _ => ?_
  exact if_congr (vec_resultIdx?_eq_some_iff wf idx a n) rfl rfl

/-! ## The degree count and its reciprocal square root -/

/-- A sum of ones over a finite set, started at zero, is the number of the set's elements. -/
theorem zero_add_sum_one_eq_card {ι : Type*} (S : Finset ι) :
    (0 : EReal) + ∑ _j ∈ S, (1 : EReal) = ((S.card : ℝ) : EReal) := by
  classical
  rw [zero_add]
  induction S using Finset.induction_on with
  | empty => simp
  | insert k s hk ih =>
    rw [Finset.sum_insert hk, ih, Finset.card_insert_of_notMem hk, Nat.cast_add_one, EReal.coe_add, EReal.coe_one,
      add_comm]

/-- The reciprocal square root of a positive natural number k is the real 1 / √k. -/
theorem rsqrt_natCast_of_pos {k : ℕ} (hk : 1 ≤ k) :
    Ideal.rsqrt (((k : ℝ)) : EReal) = (((Real.sqrt (k : ℝ))⁻¹ : ℝ) : EReal) := by
  have hk' : (0 : ℝ) < (k : ℝ) := by exact_mod_cast hk
  rw [Ideal.rsqrt_coe, if_neg (not_lt.mpr hk'.le), if_neg hk'.ne']

/-- At zero it is +∞ (so a normaliser guarded by "degree > 0" never meets this value). -/
theorem rsqrt_natCast_zero : Ideal.rsqrt ((((0 : ℕ) : ℝ)) : EReal) = ⊤ := by
  rw [Ideal.rsqrt_coe, if_neg (by simp), if_pos (by simp)]

/-- The reciprocal square root of a positive natural number is a non-negative real. -/
theorem exists_rsqrt_natCast {k : ℕ} (hk : 1 ≤ k) :
    ∃ r : ℝ, 0 ≤ r ∧ Ideal.rsqrt (((k : ℝ)) : EReal) = (r : EReal) :=
  ⟨(Real.sqrt (k : ℝ))⁻¹, inv_nonneg.mpr (Real.sqrt_nonneg _), rsqrt_natCast_of_pos hk⟩

end Cert.Lib.GatherScatter

end
-- ==== Proof.LibGcnLayer.lean ====
/-
  One graph-convolution aggregation, normalised before or after the scatter.

  Edges e = 0 … R − 1 carry a source index and a destination index into N nodes; dinv is a non-negative real per node
  (the degree normaliser).  Aggregating, for every node n, the rows y[src e] · dinv[src e] over the edges whose
  destination is n and multiplying the total by dinv[n] gives the same as aggregating y[src e] · (dinv[src e] ·
  dinv[dst e]) over those edges: every edge that lands on n has destination n, so the common factor dinv[n] comes out of
  the sum (it is a non-negative real, and such a factor distributes over a sum of extended reals), and inside the sum
  the products are re-associated.  The source row is read clamped into [0, N − 1] alike on both sides; the destination
  used for the normaliser may be a normalised copy of the raw one, equal to it wherever the raw one is in range —
  the only edges that land anywhere.
-/
import proofs.«178645_j89919435309559_2_alg».proof.Proof.LibScatterSum

noncomputable section

open scoped BigOperators

namespace Cert.Lib.GcnLayer

open Idealize.ShloMosaic Idealize.ShloMosaic.ValueIdx Cert.Lib.GatherScatter

/-- An edge whose raw destination index, read signed, is the node n reads the normaliser at n: its normalised destination
    index is the raw one (the raw one is in range), and clamping n into [0, N − 1] leaves it. -/
theorem clamp_dst_eq {N R w : Nat} (hN : 0 < N) (idxDn idxD : IVec ⟨2, ![R, 1]⟩ w)
    (hD : ∀ e : Fin R, 0 ≤ (idxD (ix2 e (0 : Fin 1))).toInt → (idxD (ix2 e (0 : Fin 1))).toInt < (N : Int) →
      idxDn (ix2 e (0 : Fin 1)) = idxD (ix2 e (0 : Fin 1)))
    (e : Fin R) (n : Fin N) (hte : (idxD (ix2 e (0 : Fin 1))).toInt = (n.val : Int)) :
    (⟨min (idxDn (ix2 e (0 : Fin 1))).toInt.toNat (N - 1), by omega⟩ : Fin N) = n := by
  have hDn : idxDn (ix2 e (0 : Fin 1)) = idxD (ix2 e (0 : Fin 1)) :=
    hD e (by rw [hte]; exact Int.natCast_nonneg _) (by rw [hte]; exact_mod_cast n.isLt)
  refine Fin.ext ?_
  show min (idxDn (ix2 e (0 : Fin 1))).toInt.toNat (N - 1) = n.val
  rw [hDn, hte, Int.toNat_natCast]
  have := n.isLt
  omega

/-- THE AGGREGATION IDENTITY.  updK gathers the pre-scaled rows ys = y · dinv at the source; updR gathers the rows y at the
    source and scales each by dinv[src] · dinv[dst].  Scatter-adding either into zeros at the raw destination indices,
    the first total times dinv[n] is the second total, at every node n and column g. -/
theorem scatter_mul_dinv_eq {N R C w : Nat} (hN : 0 < N)
    (wfg : GatherDims.WF ⟨2, ![N, C]⟩ ⟨2, ![R, 1]⟩ ⟨2, ![R, C]⟩ [1] [0] [] [0] [] 1 ![1, C])
    (wfv : GatherDims.WF ⟨1, ![N]⟩ ⟨2, ![R, 1]⟩ ⟨1, ![R]⟩ [] [0] [] [0] [] 1 ![1])
    (wfs : ScatterDims.WF ⟨2, ![N, C]⟩ ⟨2, ![R, 1]⟩ ⟨2, ![R, C]⟩ [1] [0] [0] 1)
    (idxS idxDn idxD : IVec ⟨2, ![R, 1]⟩ w)
    (hD : ∀ e : Fin R, 0 ≤ (idxD (ix2 e (0 : Fin 1))).toInt → (idxD (ix2 e (0 : Fin 1))).toInt < (N : Int) →
      idxDn (ix2 e (0 : Fin 1)) = idxD (ix2 e (0 : Fin 1)))
    (dinv : (⟨1, ![N]⟩ : Shape).Idx → EReal)
    (hdinv : ∀ n : Fin N, ∃ r : ℝ, 0 ≤ r ∧ dinv (ix1 n) = (r : EReal))
    (y ys : (⟨2, ![N, C]⟩ : Shape).Idx → EReal)
    (hys : ∀ (n : Fin N) (g : Fin C), ys (ix2 n g) = y (ix2 n g) * dinv (ix1 n))
    (zero : (⟨2, ![N, C]⟩ : Shape).Idx → EReal) (hz : ∀ i, zero i = 0)
    (updK updR : (⟨2, ![R, C]⟩ : Shape).Idx → EReal)
    (hK : ∀ (e : Fin R) (f : Fin C), updK (ix2 e f) = Host.gather (rowsDims N R C wfg) ys idxS (ix2 e f))
    (hR : ∀ (e : Fin R) (f : Fin C), updR (ix2 e f) = Host.gather (rowsDims N R C wfg) y idxS (ix2 e f)
      * (Host.gather (vecDims N R wfv) dinv idxS (ix1 e) * Host.gather (vecDims N R wfv) dinv idxDn (ix1 e)))
    (n : Fin N) (g : Fin C) :
    Ideal.hostScatterAdd (rowsScatter N R C wfs) zero idxD updK (ix2 n g) * dinv (ix1 n)
      = Ideal.hostScatterAdd (rowsScatter N R C wfs) zero idxD updR (ix2 n g) := by
  obtain ⟨r, hr, hrn⟩ := hdinv n
  rw [scatterAdd_rows_apply, scatterAdd_rows_apply, hz, hrn, zero_add_sum_mul_coe_of_nonneg _ _ hr]
  congr 1
  refine Finset.sum_congr rfl fun e he => ?_
  have hte : (idxD (ix2 e (0 : Fin 1))).toInt = (n.val : Int) := (Finset.mem_filter.mp he).2
  rw [hK, hR, gather_rows_apply hN, gather_rows_apply hN, gather_vec_apply hN, gather_vec_apply hN, hys,
    clamp_dst_eq hN idxDn idxD hD e n hte, ← hrn, mul_assoc]

end Cert.Lib.GcnLayer

end
-- ==== Proof.LibDinv.lean ====
/-
  Counting edges by a scatter-add of ones, and the normaliser 1 / √count.

  Scatter-adding a one per edge into an array of zeros, at the edges' indices, leaves at node n the number of edges
  whose index (read signed) is n: 0 + a sum of ones over a finite set, a natural number.  "1 / √count where count > 0,
  else 0" is then a non-negative real at every node: a positive natural number has a positive real reciprocal square
  root, and where the count is 0 the comparison fails and the zero is taken.  It is never an infinity, which is what
  lets such a factor be moved across sums of extended reals.
-/
import proofs.«178645_j89919435309559_2_alg».proof.Proof.LibScatterSum

noncomputable section

open scoped BigOperators

namespace Cert.Lib.Dinv

open Idealize.ShloMosaic Idealize.ShloMosaic.ValueIdx Cert.Lib.GatherScatter

/-- The word 0x3F800000 is the float 1.0: sign 0, biased exponent 127, zero fraction. -/
theorem ofBits_one_f32 : Ideal.ofBits .f32 0x3F800000#32 = 1 := by
  simp [Ideal.ofBits, Ideal.ieee, -EReal.coe_mul]; norm_num

/-- A scalar broadcast to any shape reads the scalar at every index … -/
theorem broadcastInDim_scalar_apply {α : Type} {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- … so it is a constant function. -/
theorem broadcastInDim_scalar {α : Type} {t : Shape}
    (h : (⟨0, ![]⟩ : Shape).BroadcastsInDim t (![] : Fin 0 → Fin t.rank))
    (x : (⟨0, ![]⟩ : Shape).Idx → α) : broadcastInDim t ![] h x = fun _ => x ix0 :=
  funext (broadcastInDim_scalar_apply h x)

/-- The host's reciprocal square root at an index is the extended reals' one of the element. -/
theorem hostRsqrt_apply {s : Shape} {φ : FTy} (x : FVec Ideal s φ) (i : s.Idx) :
    Host.rsqrt x i = Ideal.rsqrt (x i) := rfl

/-- "1 / √k where k > 0, else 0" of a natural number k is a non-negative real: for k = 0 the comparison 0 < k fails and
    the zero is taken; for k ≥ 1 it holds and 1 / √k is a positive real. -/
theorem select_rsqrt_natCast (k : ℕ) :
    ∃ r : ℝ, 0 ≤ r ∧
      Scalar.select (Ideal.cmp .ogt (((k : ℝ)) : EReal) 0) (Ideal.rsqrt (((k : ℝ)) : EReal)) (0 : EReal) = (r : EReal) := by
  rcases Nat.eq_zero_or_pos k with rfl | hk
  · refine ⟨0, le_refl _, ?_⟩
    have hc : Ideal.cmp .ogt ((((0 : ℕ) : ℝ)) : EReal) 0 = 0#1 := by simp [Ideal.cmp]
    rw [hc, select_zero]
    exact EReal.coe_zero.symm
  · obtain ⟨r, hr, h⟩ := exists_rsqrt_natCast hk
    refine ⟨r, hr, ?_⟩
    have hpos : (0 : EReal) < (((k : ℝ)) : EReal) := by exact_mod_cast hk
    have hc : Ideal.cmp .ogt (((k : ℝ)) : EReal) 0 = 1#1 := by
      unfold Ideal.cmp
      simp only [decide_eq_true hpos]
      rfl
    rw [hc, select_one, h]

section Count
variable {N R w : Nat}
  (wf : ScatterDims.WF ⟨1, ![N]⟩ ⟨2, ![R, 1]⟩ ⟨1, ![R]⟩ [] [0] [0] 1)
  (hN : (⟨0, ![]⟩ : Shape).BroadcastsInDim ⟨1, ![N]⟩ (![] : Fin 0 → Fin (⟨1, ![N]⟩ : Shape).rank))
  (hR : (⟨0, ![]⟩ : Shape).BroadcastsInDim ⟨1, ![R]⟩ (![] : Fin 0 → Fin (⟨1, ![R]⟩ : Shape).rank))
  (idx : IVec ⟨2, ![R, 1]⟩ w)

/-- Ones scatter-added into zeros: at node n, the number of edges whose index, read signed, is n. -/
theorem scatterAdd_ones_apply (n : Fin N) :
    Ideal.hostScatterAdd (vecScatter N R wf)
        (broadcastInDim ⟨1, ![N]⟩ ![] hN (constant (F := Ideal) ⟨0, ![]⟩ .f32 0x00000000#32)) idx
        (broadcastInDim ⟨1, ![R]⟩ ![] hR (constant (F := Ideal) ⟨0, ![]⟩ .f32 0x3F800000#32)) (ix1 n)
      = ((((Finset.univ.filter
          (fun e : Fin R => (idx (ix2 e (0 : Fin 1))).toInt = (n.val : Int))).card : ℕ) : ℝ) : EReal) := by
  rw [broadcastInDim_scalar, broadcastInDim_scalar, scatterAdd_vec_apply, constant_apply, constant_apply,
    Ideal.ofBits_zero_f32, ofBits_one_f32, zero_add_sum_one_eq_card]

/-- The degree count as the programs spell it. -/
def degOf : FVec Ideal ⟨1, ![N]⟩ .f32 :=
  Host.scatterAdd (F := Ideal) (vecScatter N R wf)
    (broadcastInDim ⟨1, ![N]⟩ ![] hN (constant (F := Ideal) ⟨0, ![]⟩ .f32 0x00000000#32)) idx
    (broadcastInDim ⟨1, ![R]⟩ ![] hR (constant (F := Ideal) ⟨0, ![]⟩ .f32 0x3F800000#32))

/-- The normaliser as the programs spell it: 1 / √deg where deg > 0, else 0. -/
def dinvOf : FVec Ideal ⟨1, ![N]⟩ .f32 :=
  select (cmpf .ogt (degOf wf hN hR idx)
      (broadcastInDim ⟨1, ![N]⟩ ![] hN (constant (F := Ideal) ⟨0, ![]⟩ .f32 0x00000000#32)))
    (Host.rsqrt (degOf wf hN hR idx))
    (broadcastInDim ⟨1, ![N]⟩ ![] hN (constant (F := Ideal) ⟨0, ![]⟩ .f32 0x00000000#32))

/-- The degree of node n is the number of edges whose index is n. -/
theorem degOf_apply (n : Fin N) :
    degOf wf hN hR idx (ix1 n) = ((((Finset.univ.filter
      (fun e : Fin R => (idx (ix2 e (0 : Fin 1))).toInt = (n.val : Int))).card : ℕ) : ℝ) : EReal) := by
  unfold degOf
  rw [Host.scatterAdd, Ideal.hostScatterAdd_def, scatterAdd_ones_apply]

/-- The normaliser at node n is a non-negative real. -/
theorem dinvOf_real (n : Fin N) : ∃ r : ℝ, 0 ≤ r ∧ dinvOf wf hN hR idx (ix1 n) = (r : EReal) := by
  obtain ⟨r, hr, h⟩ := select_rsqrt_natCast (Finset.univ.filter
      (fun e : Fin R => (idx (ix2 e (0 : Fin 1))).toInt = (n.val : Int))).card
  refine ⟨r, hr, ?_⟩
  unfold dinvOf
  rw [select_apply, cmpf_apply, broadcastInDim_scalar_apply, Ideal.cmpf_def, hostRsqrt_apply, constant_apply,
    Ideal.ofBits_zero_f32, degOf_apply]
  exact h

end Count

end Cert.Lib.Dinv

end
-- ==== Proof.LibUnitColumn.lean ====
/-
  A vector laid out as a one-column matrix, and a one-column matrix spread along the rows.

  A length-`a` vector becomes an `[a, 1]` matrix either by a reshape or by a broadcast that keeps axis 0; either
  way the entry at `(i, u)` is the vector's entry `i`. Spreading an `[a, 1]` matrix to `[a, b]` repeats the
  column: the entry at `(i, j)` is the column's entry `(i, 0)`. Hence the two spellings of "the vector as a column,
  repeated along each row" are one matrix.
-/
import Idealize.ShloMosaic.Lib.Pipeline.Value
import Idealize.ShloMosaic.Lib.ValueIdx

namespace Cert.LibUnitColumn

open Idealize.ShloMosaic Idealize.ShloMosaic.ValueIdx

variable {α : Type}

/-- An `[a]` vector cast to `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` vector broadcast to `[a, 1]` along axis 0 reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply ![0] h x _ _ (fun d => by
    match d with
    | ⟨0, _⟩ =>
      show i.val = if a = 1 then 0 else i.val
      split_ifs with e
      · have := i.isLt; omega
      · rfl)

/-- An `[a, 1]` column spread to `[a, b]` reads, at `(i, j)`, the column at `(i, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i 0) :=
  broadcastInDim_apply ![0, 1] h x _ _ (fun d => by
    match d with
    | ⟨0, _⟩ =>
      show i.val = if a = 1 then 0 else i.val
      split_ifs with e
      · have := i.isLt; omega
      · rfl
    | ⟨1, _⟩ =>
      show (0 : ℕ) = if (1 : ℕ) = 1 then 0 else j.val
      rw [if_pos rfl])

/-- The vector as a column repeated along each row, by a reshape or by a broadcast: one matrix. -/
theorem spread_cast_eq_spread_bcast {a b : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0])
    (h2 : (⟨2, ![a, 1]⟩ : Shape).BroadcastsInDim ⟨2, ![a, b]⟩ ![0, 1]) :
    broadcastInDim ⟨2, ![a, b]⟩ ![0, 1] h2 (shapeCast ⟨2, ![a, 1]⟩ x hc)
      = broadcastInDim ⟨2, ![a, b]⟩ ![0, 1] h2 (broadcastInDim ⟨2, ![a, 1]⟩ ![0] hb x) := by
  funext i
  obtain ⟨p, q, rfl⟩ : ∃ (p : Fin a) (q : Fin b), i = ix2 p q := ⟨i 0, i 1, eq_ix2 i⟩
  rw [broadcastInDim_a1_ab_apply, broadcastInDim_a1_ab_apply, shapeCast_a_a1_apply, broadcastInDim_a_a1_apply]

end Cert.LibUnitColumn
-- ==== Proof.BridgeA.lean ====
/-
  The reference program's index arrays, normaliser and per-edge updates in the kernel program's vocabulary.

  Both programs build the same source and destination indices from the edge array, count the edges landing on each
  node the same way and take the same reciprocal square root.  Every node is the destination of its own self loop, so
  each count is a positive natural number and the normaliser a non-negative real.  An edge whose raw destination index is
  not negative keeps it under the wrap-around a lookup applies.
-/
import proofs.«178645_j89919435309559_2_alg».proof.Proof.Gen.ReferenceIdeal.Read
import proofs.«178645_j89919435309559_2_alg».proof.Proof.KHost
import proofs.«178645_j89919435309559_2_alg».proof.Proof.LibGcnLayer
import proofs.«178645_j89919435309559_2_alg».proof.Proof.LibDinv
import proofs.«178645_j89919435309559_2_alg».proof.Proof.LibUnitColumn
import Idealize.ShloMosaic.Lib.IdealHost

set_option maxRecDepth 16384

noncomputable section

open scoped BigOperators

namespace Cert.Bridge

open Idealize.ShloMosaic Idealize.ShloMosaic.ValueIdx
open Cert.ReferenceIdeal.Read Cert.KernelIdeal.Host Cert.Gcn
open Cert.Lib.GatherScatter Cert.Lib.Dinv Cert.LibUnitColumn

abbrev Edges := IVec Cert.KernelIdeal.S2x1600000 32

/-! ## One vocabulary -/

theorem ref_src_col_a (x1 : Edges) : val_main_v17 (F := Ideal) x1 = asColumn (wrapped (srcIdx x1)) := rfl
theorem ref_src_col_b (x1 : Edges) : val_main_v33 (F := Ideal) x1 = asColumn (wrapped (srcIdx x1)) := rfl
theorem ref_src_col_c (x1 : Edges) : val_main_v51 (F := Ideal) x1 = asColumn (wrapped (srcIdx x1)) := rfl
theorem ref_dstw_col (x1 : Edges) : val_main_v24 (F := Ideal) x1 = asColumn (wrapped (dstIdx x1)) := rfl
theorem ref_dst_col_a (x1 : Edges) : val_main_v39 (F := Ideal) x1 = asColumn (dstIdx x1) := rfl
theorem ref_dst_col_b (x1 : Edges) : val_main_v57 (F := Ideal) x1 = asColumn (dstIdx x1) := rfl
theorem ref_normaliser (x1 : Edges) : val_main_v11 (F := Ideal) x1 = normaliser x1 := rfl

/-! ## The normaliser is a non-negative real -/

/-- A node number below 100000 as a 32-bit word reads back, signed, as itself. -/
theorem toInt_ofNat_node (k : ℕ) (h : k < 100000) : (BitVec.ofNat 32 k).toInt = (k : Int) := by
  have hk : (BitVec.ofNat 32 k).toNat = k := by
    rw [BitVec.toNat_ofNat]
    exact Nat.mod_eq_of_lt (by omega)
  rw [BitVec.toInt_eq_toNat_cond, hk, if_pos (by omega)]

/-- The destination index of node n's self loop, edge 1600000 + n, is n. -/
theorem dst_selfloop (x1 : Edges) (n : Fin 100000) :
    (asColumn (dstIdx x1) (ix2 (⟨1600000 + n.val, by omega⟩ : Fin 1700000) (0 : Fin 1))).toInt = (n.val : Int) := by
  unfold asColumn
  rw [broadcastInDim_a_a1_apply]
  unfold dstIdx endpoints
  rw [concatenate_pair_apply_right (s₁ := Cert.KernelIdeal.S1600000) (s₂ := Cert.KernelIdeal.S100000) (0 : Fin 1) _ _ _ (ix1 (⟨1600000 + n.val, by omega⟩ : Fin 1700000)) rfl rfl (ix1 n)
    (fun b hb => absurd (Subsingleton.elim _ _) hb) (by show n.val + 1600000 = 1600000 + n.val; omega)]
  show (BitVec.ofNat 32 n.val).toInt = (n.val : Int)
  exact toInt_ofNat_node n.val n.isLt

/-- Every node is the destination of its own self loop, so the number of edges landing on it is a positive natural
    number and its normaliser a non-negative real. -/
theorem normaliser_real (x1 : Edges) (n : Fin 100000) :
    ∃ r : ℝ, 0 ≤ r ∧ normaliser x1 (ix1 n) = (r : EReal) := by
  have hdeg : degree x1 (ix1 n) = ((((Finset.univ.filter (fun e : Fin 1700000 =>
      (asColumn (dstIdx x1) (ix2 e (0 : Fin 1))).toInt = (n.val : Int))).card : ℕ) : ℝ) : EReal) := by
    unfold degree
    rw [Host.scatterAdd, Ideal.hostScatterAdd_def]
    exact scatterAdd_ones_apply Cert.KernelIdeal.Gen.scatter_S100000_S1700000x1_S1700000_n_0_0_1_wf
      Cert.KernelIdeal.Gen.bcast_S_S100000 Cert.KernelIdeal.Gen.bcast_S_S1700000 (asColumn (dstIdx x1)) n
  have hpos : 1 ≤ (Finset.univ.filter (fun e : Fin 1700000 =>
      (asColumn (dstIdx x1) (ix2 e (0 : Fin 1))).toInt = (n.val : Int))).card :=
    Finset.card_pos.mpr ⟨⟨1600000 + n.val, by omega⟩, Finset.mem_filter.mpr ⟨Finset.mem_univ _, dst_selfloop x1 n⟩⟩
  obtain ⟨r, hr, h⟩ := exists_rsqrt_natCast hpos
  refine ⟨r, hr, ?_⟩
  unfold normaliser
  rw [hostRsqrt_apply, hdeg, h]

/-! ## The wrap-around leaves a non-negative index alone -/

theorem wrapped_of_nonneg (d : IVec Cert.KernelIdeal.S1700000 32) (e : Fin 1700000) (h : 0 ≤ (d (ix1 e)).toInt) :
    wrapped d (ix1 e) = d (ix1 e) := by
  unfold wrapped
  rw [select_apply]
  have hc : cmpi .slt d (broadcastInDim Cert.KernelIdeal.S1700000 ![] Cert.KernelIdeal.Gen.bcast_S_S1700000
      (constantI Cert.KernelIdeal.S_ 32 0#32)) (ix1 e) = 0#1 := by
    show IntOp.cmpi .slt (d (ix1 e)) (broadcastInDim Cert.KernelIdeal.S1700000 ![] Cert.KernelIdeal.Gen.bcast_S_S1700000
      (constantI Cert.KernelIdeal.S_ 32 0#32) (ix1 e)) = 0#1
    rw [ValueIdx.broadcastInDim_scalar_apply]
    show BitVec.ofBool ((d (ix1 e)).slt 0#32) = 0#1
    have hs : (d (ix1 e)).slt 0#32 = false := by
      unfold BitVec.slt
      exact decide_eq_false (by simpa using h)
    rw [hs]
    rfl
  rw [hc, select_zero]

/-- An edge whose raw destination index is not negative has the same wrapped one. -/
theorem wrapped_col_eq (d : IVec Cert.KernelIdeal.S1700000 32) (e : Fin 1700000)
    (h0 : 0 ≤ (asColumn d (ix2 e (0 : Fin 1))).toInt) :
    asColumn (wrapped d) (ix2 e (0 : Fin 1)) = asColumn d (ix2 e (0 : Fin 1)) := by
  unfold asColumn at h0 ⊢
  rw [broadcastInDim_a_a1_apply] at h0
  rw [broadcastInDim_a_a1_apply, broadcastInDim_a_a1_apply]
  exact wrapped_of_nonneg d e h0

/-! ## One layer: the normaliser of the destination comes out of the aggregation -/

/-- The zero array both programs aggregate into. -/
abbrev zeroRows : FVec Ideal Cert.KernelIdeal.S100000x128 .f32 :=
  broadcastInDim Cert.KernelIdeal.S100000x128 ![] Cert.KernelIdeal.Gen.bcast_S_S100000x128
    (constant Cert.KernelIdeal.S_ .f32 0x00000000#32)

theorem zeroRows_apply (i : Cert.KernelIdeal.S100000x128.Idx) : zeroRows i = 0 := by
  unfold zeroRows
  rw [ValueIdx.broadcastInDim_scalar_apply, constant_apply, Ideal.ofBits_zero_f32]

/-- The row gather, the vector gather and the row scatter of both programs, by their dimension numbers. -/
abbrev rowGather := rowsDims 100000 1700000 128
  Cert.KernelIdeal.Gen.gather_S100000x128_S1700000x1_S1700000x128_1_0_n_n_0_1_1128_wf
abbrev vecGather := vecDims 100000 1700000 Cert.ReferenceIdeal.Gen.gather_S100000_S1700000x1_S1700000_n_0_n_n_0_1_1_wf
abbrev rowScatter := rowsScatter 100000 1700000 128
  Cert.KernelIdeal.Gen.scatter_S100000x128_S1700000x1_S1700000x128_1_0_0_1_wf

/-- One aggregation in those terms: the sum the scatter-add computes over the gathered rows. -/
theorem aggregate_eq (s d : IVec Cert.KernelIdeal.S1700000 32) (y : Mat 100000 128) :
    aggregate s d y = Ideal.hostScatterAdd rowScatter zeroRows (asColumn d)
      (Host.gather rowGather y (asColumn (wrapped s))) := by
  unfold aggregate
  rw [Host.scatterAdd, Ideal.hostScatterAdd_def]
  rfl

/-- Aggregating the rows pre-scaled by the source's normaliser and scaling the total by the destination's gives what
    aggregating the rows scaled per edge by both normalisers gives: the destination's normaliser is one non-negative real
    for all the edges that land on a node, so it comes out of their sum, and products re-associate. -/
theorem layer (x1 : Edges) (y ys : Mat 100000 128)
    (hys : ∀ (n : Fin 100000) (g : Fin 128), ys (ix2 n g) = y (ix2 n g) * normaliser x1 (ix1 n))
    (updR : Mat 1700000 128)
    (hR : ∀ (e : Fin 1700000) (f : Fin 128), updR (ix2 e f)
      = Host.gather rowGather y (asColumn (wrapped (srcIdx x1))) (ix2 e f)
        * (Host.gather vecGather (normaliser x1) (asColumn (wrapped (srcIdx x1))) (ix1 e)
          * Host.gather vecGather (normaliser x1) (asColumn (wrapped (dstIdx x1))) (ix1 e)))
    (n : Fin 100000) (g : Fin 128) :
    aggregate (srcIdx x1) (dstIdx x1) ys (ix2 n g) * normaliser x1 (ix1 n)
      = Ideal.hostScatterAdd rowScatter zeroRows (asColumn (dstIdx x1)) updR (ix2 n g) := by
  rw [aggregate_eq]
  exact Cert.Lib.GcnLayer.scatter_mul_dinv_eq (Nat.succ_pos _) _ _ _
    (asColumn (wrapped (srcIdx x1))) (asColumn (wrapped (dstIdx x1))) (asColumn (dstIdx x1))
    (fun e h0 _ => wrapped_col_eq (dstIdx x1) e h0)
    (normaliser x1) (normaliser_real x1) y ys hys zeroRows zeroRows_apply
    (Host.gather rowGather ys (asColumn (wrapped (srcIdx x1)))) updR (fun _ _ => rfl) hR n g

end Cert.Bridge

end
-- ==== Proof.BridgeB.lean ====
/-
  The reference program's result is the kernel program's.

  Layer by layer.  The reference scales every gathered row of h·W by the product of the two endpoints' normalisers and adds
  it into its destination's row; the kernel scales h·W by the normaliser row by row before gathering and scales the
  aggregate by the normaliser again afterwards.  By the layer identity the two agree after each aggregation, hence after the
  bias and the rectifier, hence after the next matrix product; the head (a matrix product and a bias) is the same on both
  sides.
-/
import proofs.«178645_j89919435309559_2_alg».proof.Proof.BridgeA

set_option maxRecDepth 16384

noncomputable section

open scoped BigOperators

namespace Cert.Bridge

open Idealize.ShloMosaic Idealize.ShloMosaic.ValueIdx
open Cert.ReferenceIdeal.Read Cert.KernelIdeal.Host Cert.Gcn
open Cert.Lib.GatherScatter Cert.Lib.Dinv Cert.LibUnitColumn

variable (x0 : FVec Ideal Cert.KernelIdeal.S100000x128 .f32) (x1 : Edges)
  (x2 : FVec Ideal Cert.KernelIdeal.S128x128 .f32) (x3 : FVec Ideal Cert.KernelIdeal.S128 .f32)
  (x4 : FVec Ideal Cert.KernelIdeal.S128x128 .f32) (x5 : FVec Ideal Cert.KernelIdeal.S128 .f32)
  (x6 : FVec Ideal Cert.KernelIdeal.S128x8 .f32) (x7 : FVec Ideal Cert.KernelIdeal.S8 .f32)

/-- The normaliser column at row n is the normaliser of node n. -/
theorem normaliserColumn_apply (n : Fin 100000) :
    normaliserColumn x1 (ix2 n (0 : Fin 1)) = normaliser x1 (ix1 n) := by
  unfold normaliserColumn
  exact shapeCast_a_a1_apply _ _ n 0

/-! ## The first layer -/

/-- The first matrix product of the reference at (n, g). -/
theorem ref_product1 (n : Fin 100000) (g : Fin 128) :
    val_main_v27 (F := Ideal) x0 x2 (ix2 n g) = ∑ k : Fin 128, x0 (ix2 n k) * x2 (ix2 k g) := by
  rw [val_main_v27_apply]
  refine Finset.sum_congr rfl fun k _ => ?_
  rw [show lidx_main_v27 (ix2 n g) k = ix2 n k from funext fun a => by
        match a with
        | ⟨0, _⟩ => rfl
        | ⟨1, _⟩ => rfl,
    show ridx_main_v27 (ix2 n g) k = ix2 k g from funext fun a => by
        match a with
        | ⟨0, _⟩ => rfl
        | ⟨1, _⟩ => rfl]

/-- The reference's per-edge update of the first layer: the gathered row times the two endpoints' normalisers. -/
theorem ref_update1 (e : Fin 1700000) (f : Fin 128) :
    val_main_v37 (F := Ideal) x0 x1 x2 (ix2 e f)
      = Host.gather rowGather (val_main_v27 (F := Ideal) x0 x2) (asColumn (wrapped (srcIdx x1))) (ix2 e f)
        * (Host.gather vecGather (normaliser x1) (asColumn (wrapped (srcIdx x1))) (ix1 e)
          * Host.gather vecGather (normaliser x1) (asColumn (wrapped (dstIdx x1))) (ix1 e)) := by
  rw [val_main_v37_apply, val_main_v36_apply, val_main_v35_apply, val_main_v26_apply]
  rw [show idx_main_v35 (idx_main_v36 (ix2 e f)) = ix1 e from funext fun a => by
        match a with
        | ⟨0, _⟩ => rfl]
  rfl

/-- The reference's first aggregation, by its dimension numbers. -/
theorem ref_aggregate1 :
    val_main_v40 (F := Ideal) x0 x1 x2
      = Ideal.hostScatterAdd rowScatter zeroRows (asColumn (dstIdx x1)) (val_main_v37 (F := Ideal) x0 x1 x2) := by
  unfold val_main_v40
  rw [Host.scatterAdd, Ideal.hostScatterAdd_def]
  rfl

/-- After the first aggregation the two programs agree: the kernel's aggregate scaled by the normaliser is the
    reference's. -/
theorem layer1 (n : Fin 100000) (k : Fin 128) :
    aggregate (srcIdx x1) (dstIdx x1) (scaledProduct x0 x2 (normaliserColumn x1)) (ix2 n k) * normaliser x1 (ix1 n)
      = val_main_v40 (F := Ideal) x0 x1 x2 (ix2 n k) :=
  (layer x1 (val_main_v27 (F := Ideal) x0 x2) (scaledProduct x0 x2 (normaliserColumn x1))
    (fun n g => by rw [scaledProduct_apply, ref_product1, normaliserColumn_apply])
    (val_main_v37 (F := Ideal) x0 x1 x2) (ref_update1 x0 x1 x2) n k).trans
    (congrFun (ref_aggregate1 x0 x1 x2).symm (ix2 n k))

/-- The hidden activations of the first layer agree. -/
theorem hidden1 (n : Fin 100000) (k : Fin 128) :
    val_main_v44 (F := Ideal) x0 x1 x2 x3 (ix2 n k)
      = hidden (aggregate (srcIdx x1) (dstIdx x1) (scaledProduct x0 x2 (normaliserColumn x1)))
          (normaliserColumn x1) x3 n k := by
  rw [val_main_v44_apply, val_main_v43_apply, val_main_call0_v0_apply, val_main_call0_cst_apply, val_main_v42_apply,
    val_main_v41_apply, ← layer1]
  rw [show idx_main_v41 (idx_main_v42 (ix2 n k)) = ix1 k from funext fun a => by
        match a with
        | ⟨0, _⟩ => rfl]
  unfold Cert.Gcn.hidden
  rw [normaliserColumn_apply]
  show max _ (Ideal.ofBits .f32 0x00000000#32) = _
  rw [Ideal.ofBits_zero_f32]
  rfl

/-! ## The second layer -/

/-- The second matrix product of the reference at (n, g). -/
theorem ref_product2 (n : Fin 100000) (g : Fin 128) :
    val_main_v45 (F := Ideal) x0 x1 x2 x3 x4 (ix2 n g)
      = ∑ k : Fin 128, val_main_v44 (F := Ideal) x0 x1 x2 x3 (ix2 n k) * x4 (ix2 k g) := by
  rw [val_main_v45_apply]
  refine Finset.sum_congr rfl fun k _ => ?_
  rw [show lidx_main_v45 (ix2 n g) k = ix2 n k from funext fun a => by
        match a with
        | ⟨0, _⟩ => rfl
        | ⟨1, _⟩ => rfl,
    show ridx_main_v45 (ix2 n g) k = ix2 k g from funext fun a => by
        match a with
        | ⟨0, _⟩ => rfl
        | ⟨1, _⟩ => rfl]

/-- The reference's per-edge update of the second layer. -/
theorem ref_update2 (e : Fin 1700000) (f : Fin 128) :
    val_main_v55 (F := Ideal) x0 x1 x2 x3 x4 (ix2 e f)
      = Host.gather rowGather (val_main_v45 (F := Ideal) x0 x1 x2 x3 x4) (asColumn (wrapped (srcIdx x1))) (ix2 e f)
        * (Host.gather vecGather (normaliser x1) (asColumn (wrapped (srcIdx x1))) (ix1 e)
          * Host.gather vecGather (normaliser x1) (asColumn (wrapped (dstIdx x1))) (ix1 e)) := by
  rw [val_main_v55_apply, val_main_v54_apply, val_main_v53_apply, val_main_v26_apply]
  rw [show idx_main_v53 (idx_main_v54 (ix2 e f)) = ix1 e from funext fun a => by
        match a with
        | ⟨0, _⟩ => rfl]
  rfl

/-- The kernel's first-layer output, pre-scaled for the second aggregation. -/
abbrev scaled2 : Mat 100000 128 :=
  hiddenScaled (aggregate (srcIdx x1) (dstIdx x1) (scaledProduct x0 x2 (normaliserColumn x1))) (normaliserColumn x1) x3 x4

/-- The reference's second aggregation, by its dimension numbers. -/
theorem ref_aggregate2 :
    val_main_v58 (F := Ideal) x0 x1 x2 x3 x4
      = Ideal.hostScatterAdd rowScatter zeroRows (asColumn (dstIdx x1))
          (val_main_v55 (F := Ideal) x0 x1 x2 x3 x4) := by
  unfold val_main_v58
  rw [Host.scatterAdd, Ideal.hostScatterAdd_def]
  rfl

/-- After the second aggregation the two programs agree. -/
theorem layer2 (n : Fin 100000) (k : Fin 128) :
    aggregate (srcIdx x1) (dstIdx x1) (scaled2 x0 x1 x2 x3 x4) (ix2 n k) * normaliser x1 (ix1 n)
      = val_main_v58 (F := Ideal) x0 x1 x2 x3 x4 (ix2 n k) :=
  (layer x1 (val_main_v45 (F := Ideal) x0 x1 x2 x3 x4) (scaled2 x0 x1 x2 x3 x4)
    (fun n g => by
      show hiddenScaled _ (normaliserColumn x1) x3 x4 (ix2 n g) = _
      rw [hiddenScaled_apply, ref_product2, normaliserColumn_apply]
      refine congrArg (fun z => z * normaliser x1 (ix1 n)) (Finset.sum_congr rfl fun k _ => ?_)
      rw [hidden1])
    (val_main_v55 (F := Ideal) x0 x1 x2 x3 x4) (ref_update2 x0 x1 x2 x3 x4) n k).trans
    (congrFun (ref_aggregate2 x0 x1 x2 x3 x4).symm (ix2 n k))

/-- The hidden activations of the second layer agree. -/
theorem hidden2 (n : Fin 100000) (k : Fin 128) :
    val_main_v62 (F := Ideal) x0 x1 x2 x3 x4 x5 (ix2 n k)
      = hidden (aggregate (srcIdx x1) (dstIdx x1) (scaled2 x0 x1 x2 x3 x4)) (normaliserColumn x1) x5 n k := by
  rw [val_main_v62_apply, val_main_v61_apply, val_main_call1_v0_apply, val_main_call1_cst_apply, val_main_v60_apply,
    val_main_v59_apply, ← layer2]
  rw [show idx_main_v59 (idx_main_v60 (ix2 n k)) = ix1 k from funext fun a => by
        match a with
        | ⟨0, _⟩ => rfl]
  unfold Cert.Gcn.hidden
  rw [normaliserColumn_apply]
  show max _ (Ideal.ofBits .f32 0x00000000#32) = _
  rw [Ideal.ofBits_zero_f32]
  rfl

/-! ## The head -/

/-- THE TWO RESULTS ARE ONE ARRAY. -/
theorem result_eq :
    val_main_v66 (F := Ideal) x0 x1 x2 x3 x4 x5 x6 x7 = result x0 x1 x2 x3 x4 x5 x6 x7 := by
  funext i
  obtain ⟨n, j, rfl⟩ : ∃ (n : Fin 100000) (j : Fin 8), i = ix2 n j := ⟨i 0, i 1, eq_ix2 i⟩
  rw [val_main_v66_apply, val_main_v63_apply, val_main_v65_apply, val_main_v64_apply]
  rw [show idx_main_v64 (idx_main_v65 (ix2 n j)) = ix1 j from funext fun a => by
        match a with
        | ⟨0, _⟩ => rfl]
  unfold result
  rw [hiddenBiased_apply]
  refine congrArg (· + x7 (ix1 j)) (Finset.sum_congr rfl fun k _ => ?_)
  rw [show lidx_main_v63 (ix2 n j) k = ix2 n k from funext fun a => by
        match a with
        | ⟨0, _⟩ => rfl
        | ⟨1, _⟩ => rfl,
    show ridx_main_v63 (ix2 n j) k = ix2 k j from funext fun a => by
        match a with
        | ⟨0, _⟩ => rfl
        | ⟨1, _⟩ => rfl,
    hidden2]

end Cert.Bridge

end
-- ==== Proof.lean ====
/-
  A two-layer graph convolution with a linear head over 100000 nodes and 1600000 edges plus one self loop per node: the
  kernel program against its plain reference, over the extended reals.

  With d[n] = 1/√(number of edges landing on n), the reference computes, per layer,
      out[n] = Σ_{e → n} (h·W)[src e] · (d[src e] · d[n]) + b,   h' = max(out, 0),
  and ends with h''·Wfc + bfc.  The kernel program computes the three dense stages in pipelined regions — (x·W1)·d row by
  row; (max(agg·d + b1, 0)·W2)·d; max(agg·d + b2, 0)·Wfc + bfc — and between them gathers the pre-scaled rows at the source
  indices and adds them up at the destination indices.  The two agree because, for the edges landing on one node n, the
  factor d[n] is one non-negative real (n has its own self loop, so its count is a positive natural number): it comes out of
  the sum over those edges, and the products re-associate.  Nothing else is used: the precondition is never opened.

  The three frames are the generated ones (the reference's is its run with the result dropped); the kernel program was
  idealized without a rewrite, so there is nothing to preserve.
-/
import proofs.«178645_j89919435309559_2_alg».proof.Defs
import proofs.«178645_j89919435309559_2_alg».proof.Proof.Gen.Kernel
import proofs.«178645_j89919435309559_2_alg».proof.Proof.Gen.Kernel.Skeleton
import proofs.«178645_j89919435309559_2_alg».proof.Proof.Gen.Kernel.Launch
import proofs.«178645_j89919435309559_2_alg».proof.Proof.Gen.Kernel.Points
import proofs.«178645_j89919435309559_2_alg».proof.Proof.Gen.Kernel.Frame
import proofs.«178645_j89919435309559_2_alg».proof.Proof.Gen.KernelIdeal
import proofs.«178645_j89919435309559_2_alg».proof.Proof.Gen.KernelIdeal.Skeleton
import proofs.«178645_j89919435309559_2_alg».proof.Proof.Gen.KernelIdeal.Launch
import proofs.«178645_j89919435309559_2_alg».proof.Proof.Gen.KernelIdeal.Points
import proofs.«178645_j89919435309559_2_alg».proof.Proof.Gen.KernelIdeal.Frame
import proofs.«178645_j89919435309559_2_alg».proof.Proof.Gen.ReferenceIdeal
import proofs.«178645_j89919435309559_2_alg».proof.Proof.Gen.Pre_finite_inputs
import proofs.«178645_j89919435309559_2_alg».proof.Proof.Gen.ReferenceIdeal.Run
import proofs.«178645_j89919435309559_2_alg».proof.Proof.Gen.ReferenceIdeal.Read
import proofs.«178645_j89919435309559_2_alg».proof.Proof.KRun
import proofs.«178645_j89919435309559_2_alg».proof.Proof.KHost
import proofs.«178645_j89919435309559_2_alg».proof.Proof.BridgeB
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with one array: the kernel program's result buffer holds the three dense stages with an aggregation
    between each two, of the launch contents of the arguments; the reference's holds its composed term of its arguments,
    which agree with the kernel program's; and the two terms are one function. -/
theorem algebraic : Cert.algebraic_KernelIdeal_ReferenceIdeal := by
  intro m ρ m' ρ' _ hagree
  refine ⟨fun c => Cert.KernelIdeal.Host.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Host.W6_result m ρ c), (h c).2⟩)
      (Cert.KernelIdeal.Run.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v66_eq, (hagree c).1, (hagree c).2.1, (hagree c).2.2.1, (hagree c).2.2.2.1, (hagree c).2.2.2.2.1, (hagree c).2.2.2.2.2.1, (hagree c).2.2.2.2.2.2.1, (hagree c).2.2.2.2.2.2.2]
    exact Cert.Bridge.result_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
